-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128x10 .f32) (main_arg6 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) (main_arg5 : FVec F S128x10 .f32) (main_arg6 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1650000 : Shape := ⟨1, ![1650000]⟩
abbrev S1x128 : Shape := ⟨2, ![1, 128]⟩
abbrev S1x10 : Shape := ⟨2, ![1, 10]⟩
abbrev S5000x128 : Shape := ⟨2, ![5000, 128]⟩
abbrev S1650000x1 : Shape := ⟨2, ![1650000, 1]⟩
abbrev S1650000x128 : Shape := ⟨2, ![1650000, 128]⟩
abbrev S50000x10 : Shape := ⟨2, ![50000, 10]⟩
abbrev S5000x10 : Shape := ⟨2, ![5000, 10]⟩
abbrev S1650000x10 : Shape := ⟨2, ![1650000, 10]⟩
abbrev S5000 : Shape := ⟨1, ![5000]⟩
abbrev S5000x1 : Shape := ⟨2, ![5000, 1]⟩

abbrev nBuf : Space → Nat
  | .hbm => 94
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S50000, .f32⟩
  | .hbm, ⟨47, _⟩ => ⟨S50000, .i32⟩
  | .hbm, ⟨48, _⟩ => ⟨S1650000, .i32⟩
  | .hbm, ⟨49, _⟩ => ⟨S1650000, .i32⟩
  | .hbm, ⟨50, _⟩ => ⟨S1650000, .f32⟩
  | .hbm, ⟨51, _⟩ => ⟨S128x128, .bf16⟩
  | .hbm, ⟨52, _⟩ => ⟨S128x10, .bf16⟩
  | .hbm, ⟨53, _⟩ => ⟨S1x128, .f32⟩
  | .hbm, ⟨54, _⟩ => ⟨S1x10, .f32⟩
  | .hbm, ⟨55, _⟩ => ⟨S50000x128, .f32⟩
  | .hbm, ⟨56, _⟩ => ⟨S50000x128, .bf16⟩
  | .hbm, ⟨57, _⟩ => ⟨S_, .i32⟩
  | .hbm, ⟨58, _⟩ => ⟨S1650000, .i32⟩
  | .hbm, ⟨59, _⟩ => ⟨S1650000, .i1⟩
  | .hbm, ⟨60, _⟩ => ⟨S_, .i32⟩
  | .hbm, ⟨61, _⟩ => ⟨S1650000, .i32⟩
  | .hbm, ⟨62, _⟩ => ⟨S1650000, .i32⟩
  | .hbm, ⟨63, _⟩ => ⟨S1650000, .i32⟩
  | .hbm, ⟨64, _⟩ => ⟨S1650000x1, .i32⟩
  | .hbm, ⟨65, _⟩ => ⟨S1650000x128, .bf16⟩
  | .hbm, ⟨66, _⟩ => ⟨S1650000x1, .f32⟩
  | .hbm, ⟨67, _⟩ => ⟨S1650000x128, .f32⟩
  | .hbm, ⟨68, _⟩ => ⟨S1650000x128, .f32⟩
  | .hbm, ⟨69, _⟩ => ⟨S1650000x128, .f32⟩
  | .hbm, ⟨70, _⟩ => ⟨S_, .f32⟩
  | .hbm, ⟨71, _⟩ => ⟨S50000x128, .f32⟩
  | .hbm, ⟨72, _⟩ => ⟨S1650000x1, .i32⟩
  | .hbm, ⟨73, _⟩ => ⟨S50000x128, .f32⟩
  | .hbm, ⟨74, _⟩ => ⟨S50000x10, .f32⟩
  | .hbm, ⟨75, _⟩ => ⟨S50000x10, .bf16⟩
  | .hbm, ⟨76, _⟩ => ⟨S_, .i32⟩
  | .hbm, ⟨77, _⟩ => ⟨S1650000, .i32⟩
  | .hbm, ⟨78, _⟩ => ⟨S1650000, .i1⟩
  | .hbm, ⟨79, _⟩ => ⟨S_, .i32⟩
  | .hbm, ⟨80, _⟩ => ⟨S1650000, .i32⟩
  | .hbm, ⟨81, _⟩ => ⟨S1650000, .i32⟩
  | .hbm, ⟨82, _⟩ => ⟨S1650000, .i32⟩
  | .hbm, ⟨83, _⟩ => ⟨S1650000x1, .i32⟩
  | .hbm, ⟨84, _⟩ => ⟨S1650000x10, .bf16⟩
  | .hbm, ⟨85, _⟩ => ⟨S1650000x1, .f32⟩
  | .hbm, ⟨86, _⟩ => ⟨S1650000x10, .f32⟩
  | .hbm, ⟨87, _⟩ => ⟨S1650000x10, .f32⟩
  | .hbm, ⟨88, _⟩ => ⟨S1650000x10, .f32⟩
  | .hbm, ⟨89, _⟩ => ⟨S_, .f32⟩
  | .hbm, ⟨90, _⟩ => ⟨S50000x10, .f32⟩
  | .hbm, ⟨91, _⟩ => ⟨S1650000x1, .i32⟩
  | .hbm, ⟨92, _⟩ => ⟨S50000x10, .f32⟩
  | .hbm, ⟨93, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x10, .bf16⟩
  | .local _ .vmem, ⟨9, _⟩ => ⟨S5000x10, .f32⟩
  | .local _ .vmem, ⟨10, _⟩ => ⟨S5000x10, .f32⟩
  | .local _ .vmem, ⟨11, _⟩ => ⟨S5000x10, .f32⟩
  | .local _ .vmem, ⟨12, _⟩ => ⟨S5000x10, .f32⟩
  | .local _ .vmem, ⟨13, _⟩ => ⟨S1x10, .f32⟩
  | .local _ .vmem, ⟨14, _⟩ => ⟨S5000x10, .f32⟩
  | .local _ .vmem, ⟨15, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x10 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  concatenates_S1600000_S50000_S1650000_d0 : Shape.Concatenates [S1600000, S50000] S1650000 0
  bitsLt_bf16_f32 : FTy.bits .bf16 < FTy.bits .f32
  shapeCasts_S128_S1x128 : S128.ShapeCasts S1x128
  shapeCasts_S10_S1x10 : S10.ShapeCasts S1x10
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S5000x10_S5000x10_0_0 : ∀ a, (![0, 0] : Fin 2 → Nat) a + S5000x10.size a ≤ S5000x10.size a
  h_S5000x10 : 0 < S5000x10.numel
  bcast_S1650000x1_S1650000x10_0_1 : S1650000x1.BroadcastsInDim S1650000x10 (![0, 1] : Fin 2 → Fin S1650000x10.rank)
  bcast_S_S50000x10 : S_.BroadcastsInDim S50000x10 (![] : Fin 0 → Fin S50000x10.rank)
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x10_S5000x10_1_0_0_1_n_n_wf : DotDims.WF S5000x128 S128x10 S5000x10 [1] [0] [0] [1] [] []
  gather_S50000x10_S1650000x1_S1650000x10_1_0_n_n_0_1_110_wf : GatherDims.WF S50000x10 S1650000x1 S1650000x10 [1] [0] [] [0] [] 1 ![1, 10]
  scatter_S50000x10_S1650000x1_S1650000x10_1_0_0_1_wf : ScatterDims.WF S50000x10 S1650000x1 S1650000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x10.size a ≤ S128x10.size a
  hwx1_2 : ∀ i : grid1.Coords, EltTy.bits .bf16 = 32 ∨ (Rect.block (s := S128x10) S128x10.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S50000x10.size a
  hwx1_3 : ∀ i : grid1.Coords, EltTy.bits .f32 = 32 ∨ (Rect.block (s := S50000x10) S5000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S50000x10.size a
  hwx2_0 : ∀ i : grid2.Coords, EltTy.bits .f32 = 32 ∨ (Rect.block (s := S50000x10) S5000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S50000x10.size a
  hwx2_2 : ∀ i : grid2.Coords, EltTy.bits .f32 = 32 ∨ (Rect.block (s := S50000x10) S5000x10.size (cc2_transform_2 i) (hinb2_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S50000x10_S1650000x1_S1650000x10_1_0_n_n_0_1_110 : GatherDims S50000x10 S1650000x1 S1650000x10 where
  offsetDims := [1]
  collapsedSliceDims := [0]
  operandBatchingDims := []
  startIndicesBatchingDims := []
  startIndexMap := [0]
  indexVectorDim := 1
  sliceSizes := ![1, 10]
  wf := gather_S50000x10_S1650000x1_S1650000x10_1_0_n_n_0_1_110_wf
def scatter_S50000x10_S1650000x1_S1650000x10_1_0_0_1 : ScatterDims S50000x10 S1650000x1 S1650000x10 where
  updateWindowDims := [1]
  insertedWindowDims := [0]
  scatterDimsToOperandDims := [0]
  indexVectorDim := 1
  wf := scatter_S50000x10_S1650000x1_S1650000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x10 : Shape := ⟨2, ![50000, 10]⟩
abbrev S1600000x10 : Shape := ⟨2, ![1600000, 10]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S128x128, .f32⟩
  | 4 => ⟨S128, .f32⟩
  | 5 => ⟨S128x10, .f32⟩
  | 6 => ⟨S10, .f32⟩
  | 7 => ⟨S1x1600000, .i32⟩
  | 8 => ⟨S1600000, .i32⟩
  | 9 => ⟨S1x1600000, .i32⟩
  | 10 => ⟨S1600000, .i32⟩
  | 11 => ⟨S50000x128, .f32⟩
  | 12 => ⟨S_, .f32⟩
  | 13 => ⟨S50000, .f32⟩
  | 14 => ⟨S1600000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S50000x128, .f32⟩
  | 61 => ⟨S1600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x10, .f32⟩
  | 75 => ⟨S_, .f32⟩
  | 76 => ⟨S50000, .f32⟩
  | 77 => ⟨S1600000x1, .i32⟩
  | 78 => ⟨S50000, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x10, .f32⟩
  | 119 => ⟨S1600000x1, .f32⟩
  | 120 => ⟨S1600000x10, .f32⟩
  | 121 => ⟨S1600000x10, .f32⟩
  | 122 => ⟨S_, .f32⟩
  | 123 => ⟨S50000x10, .f32⟩
  | 124 => ⟨S1600000x1, .i32⟩
  | 125 => ⟨S50000x10, .f32⟩
  | 126 => ⟨S50000, .f32⟩
  | 127 => ⟨S50000x1, .f32⟩
  | _ => ⟨S50000x128, .f32⟩

abbrev hbmTy0_1 (i : Nat) : BufTy := match i % 128 with
  | 0 => ⟨S50000x10, .f32⟩
  | 1 => ⟨S50000x10, .f32⟩
  | 2 => ⟨S50000x10, .f32⟩
  | 3 => ⟨S1x10, .f32⟩
  | 4 => ⟨S50000x10, .f32⟩
  | 5 => ⟨S50000x10, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x10, .f32⟩
  | 13 => ⟨S50000x10, .f32⟩
  | 14 => ⟨S50000x10, .f32⟩
  | 15 => ⟨S_, .f32⟩
  | 16 => ⟨S50000, .f32⟩
  | 17 => ⟨S50000x1, .f32⟩
  | 18 => ⟨S50000x1, .f32⟩
  | 19 => ⟨S50000x10, .f32⟩
  | 20 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x10_0_1 : S1600000x1.BroadcastsInDim S1600000x10 (![0, 1] : Fin 2 → Fin S1600000x10.rank)
  bcast_S_S50000x10 : S_.BroadcastsInDim S50000x10 (![] : Fin 0 → Fin S50000x10.rank)
  bcast_S50000x1_S50000x10_0_1 : S50000x1.BroadcastsInDim S50000x10 (![0, 1] : Fin 2 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x10_S50000x10_1_0_0_1_n_n_wf : DotDims.WF S50000x128 S128x10 S50000x10 [1] [0] [0] [1] [] []
  gather_S50000x10_S1600000x1_S1600000x10_1_0_n_n_0_1_110_wf : GatherDims.WF S50000x10 S1600000x1 S1600000x10 [1] [0] [] [0] [] 1 ![1, 10]
  scatter_S50000x10_S1600000x1_S1600000x10_1_0_0_1_wf : ScatterDims.WF S50000x10 S1600000x1 S1600000x10 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S1600000x1_S1600000x10_1_0_n_n_0_1_110 : GatherDims S50000x10 S1600000x1 S1600000x10 where
  offsetDims := [1]
  collapsedSliceDims := [0]
  operandBatchingDims := []
  startIndicesBatchingDims := []
  startIndexMap := [0]
  indexVectorDim := 1
  sliceSizes := ![1, 10]
  wf := gather_S50000x10_S1600000x1_S1600000x10_1_0_n_n_0_1_110_wf
def scatter_S50000x10_S1600000x1_S1600000x10_1_0_0_1 : ScatterDims S50000x10 S1600000x1 S1600000x10 where
  updateWindowDims := [1]
  insertedWindowDims := [0]
  scatterDimsToOperandDims := [0]
  indexVectorDim := 1
  wf := scatter_S50000x10_S1600000x1_S1600000x10_1_0_0_1_wf

class Facts : Prop extends Facts₀ where

variable [Facts]
-- ==== Proof.KernelRun.lean ====
/-
  The idealized kernel's run with its result named. @main is eight segments: three stretches of host operations,
  then three kernel regions each followed (the last excepted) by a stretch of host operations. The buffer contents at
  every segment boundary are a fold from the launch memory: a host stretch applies its operations, a region leaves each
  of its arrays at what its grid points' write-backs leave and every other buffer as it found it. Every weakly fair
  execution terminates, nothing faults, and in the final state every unscoped buffer holds the last boundary's
  contents: read at the result's buffer that is the value of the third region's output array, and read at an argument's
  buffer it walks back to the launch memory.
-/
import proofs.«128580_j23347442221163_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result's buffer ends at the last segment
    boundary's contents and the seven argument arrays end as launched. -/
theorem run : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KRun

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.Region0.lean ====
/-
  The first kernel region, a row-blocked matrix product. The grid has ten points; point t loads rows
  [5000·t, 5000·t + 5000) of the left operand (all 128 columns) and the whole 128 × 128 right operand, and stores the
  product of the two blocks, accumulated into zero, as rows [5000·t, 5000·t + 5000) of the output. The ten row blocks
  tile the 50000 rows, so the output array ends holding, at (r, c), the sum over k of X[r, k] · W[k, c]: a row of a
  product depends on that row of the left operand only, so blocking the rows changes nothing.
-/
import proofs.«128580_j23347442221163_2_alg».proof.Proof.Gen.KernelIdeal.Frame
import proofs.«128580_j23347442221163_2_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The (r, c) entry of the product X · W of a 50000 × 128 by a 128 × 128 matrix. -/
def prodAt (X : S50000x128.Idx → EReal) (W : S128x128.Idx → EReal) (r : Fin 50000) (c : Fin 128) : EReal :=
  ∑ k : Fin 128, X (ix2 r k) * W (ix2 k c)

/-- The product as an array. -/
def prod (X : S50000x128.Idx → EReal) (W : S128x128.Idx → EReal) : S50000x128.Idx → EReal :=
  fun i => prodAt X W ⟨(i 0).val, idx2_lt0 i⟩ ⟨(i 1).val, idx2_lt1 i⟩

theorem hz : (![0, 0] : Fin 2 → Nat) = fun _ => 0 := funext fun a => by fin_cases a <;> rfl

/-- The body's stored value at (p, q): the sum over k of the loaded row block at (p, k) times the loaded weights at (k, q). -/
theorem pay_apply (x0 : Vec Ideal S5000x128 .f32) (x1 : Vec Ideal S128x128 .bf16) (p : Fin 5000) (q : Fin 128) :
    k0_pay1 (F := Ideal) x0 x1 (ix2 p q) = ∑ k : Fin 128, x0 (ix2 p k) * x1 (ix2 k q) := by
  unfold k0_pay1
  exact (Cert.Lib.MatmulPlain.matmul_plain_zero_apply (A := 5000) (K := 128) (B := 128) none
    (truncf .bf16 x0 bitsLt_bf16_f32) (shapeCast S128x128 x1 shapeCasts_S128x128_S128x128) p q).trans
    (Finset.sum_congr rfl fun k _ => by rw [shapeCast_self]; rfl)

/-- The printed block index maps over the ten grid points: the left operand's and the output's row block is the
    point itself, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays as the region finds them. -/
theorem flushed_eq (c : Dev nD) (t : Fin cfg0.N) :
    (dat0 V c).flushed 2 t = ((cfg0.win 2).blk t).view.read (Elt Ideal) (prod (V c main_arg0) (V c main_v34)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = prod (V c main_arg0) (V c main_v34) (((cfg0.win 2).blk t).view.emb (ix2 p q))
  refine (pay_apply (iblk0 V c 0 t) (iblk0 V c 1 t) p q).trans ?_
  unfold prod prodAt
  refine Finset.sum_congr rfl fun k _ => ?_
  have hX : iblk0 V c 0 t (ix2 p k)
      = V c main_arg0 (ix2 (⟨((((cfg0.win 2).blk t).view.emb (ix2 p q)) 0).val, idx2_lt0 _⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hW : iblk0 V c 1 t (ix2 k q)
      = V c main_v34 (ix2 k (⟨((((cfg0.win 2).blk t).view.emb (ix2 p q)) 1).val, idx2_lt1 _⟩ : Fin 128)) := by
    show V c main_v34 (((cfg0.win 1).blk t).view.emb (ix2 k q)) = _
    refine congrArg (V c main_v34) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hX, hW]

/-- An index of the output array is in point t's block iff its row is in [5000·t, 5000·t + 5000). -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v38).slice (win0_2.rect t)).set ↔ _
  rw [View.set_slice_whole, Rect.mem_set_unit]
  exact Iff.rfl

/-- Every index of the output array is in the block of the point its row falls in. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show (i 0).val / 5000 < 10; omega⟩, flush0_2 _, ?_⟩
  rw [mem_blk]
  obtain ⟨e0, e1, e2, e3, e4, e5⟩ := idx_facts ⟨(i 0).val / 5000, by show (i 0).val / 5000 < 10; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The output array after the region: the product of the two arrays the region found. -/
theorem final (c : Dev nD) : (dat0 V c).arrAt 2 cfg0.N = prod (V c main_arg0) (V c main_v34) :=
  (dat0 V c).arrAt_eq_of_cover 2 (prod (V c main_arg0) (V c main_v34)) (fun t _ => flushed_eq V c t) cover

end Cert.KernelIdeal.Region0

end
-- ==== Proof.Region1.lean ====
/-
  The second kernel region: bias, rectifier and a row-blocked matrix product. Point t of the ten-point grid loads rows
  [5000·t, 5000·t + 5000) of the aggregated features A (128 columns), the bias row B (1 × 128) and the whole 128 × 10
  weight matrix W, and stores rows [5000·t, 5000·t + 5000) of max(A + B, 0) · W accumulated into zero. The ten row blocks
  tile the 50000 rows, so the output ends holding, at (r, c), the sum over k of max(A[r, k] + B[0, k], 0) · W[k, c].
-/
import proofs.«128580_j23347442221163_2_alg».proof.Proof.Gen.KernelIdeal.Frame
import proofs.«128580_j23347442221163_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The (r, c) entry of max(A + B, 0) · W, the zero spelt as the f32 zero word's value. -/
def hidAt (A : S50000x128.Idx → EReal) (B : S1x128.Idx → EReal) (W : S128x10.Idx → EReal) (r : Fin 50000) (c : Fin 10) : EReal :=
  ∑ k : Fin 128, max (A (ix2 r k) + B (ix2 (0 : Fin 1) k)) (Ideal.ofBits .f32 0x00000000#32) * W (ix2 k c)

/-- The same as an array. -/
def hid (A : S50000x128.Idx → EReal) (B : S1x128.Idx → EReal) (W : S128x10.Idx → EReal) : S50000x10.Idx → EReal :=
  fun i => hidAt A B W ⟨(i 0).val, idx2_lt0 i⟩ ⟨(i 1).val, idx2_lt1 i⟩

theorem hz : (![0, 0] : Fin 2 → Nat) = fun _ => 0 := funext fun a => by fin_cases a <;> rfl

/-- The rectified, biased block at (p, k). -/
theorem relu_apply (x0 : Vec Ideal S5000x128 .f32) (x1 : Vec Ideal S1x128 .f32) (p : Fin 5000) (k : Fin 128) :
    (truncf (F := Ideal) .bf16 (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32))) bitsLt_bf16_f32) (ix2 p k)
    = max (x0 (ix2 p k) + x1 (ix2 (0 : Fin 1) k)) (Ideal.ofBits .f32 0x00000000#32) := by
  rw [shapeCast_self, shapeCast_self]
  show max (x0 (ix2 p k) + broadcastTo S5000x128 x1 broadcasts_S1x128_S5000x128 (ix2 p k)) _ = _
  rw [broadcastTo_1b_ab_apply]
  rfl

/-- The body's stored value at (p, q). -/
theorem pay_apply (x0 : Vec Ideal S5000x128 .f32) (x1 : Vec Ideal S1x128 .f32) (x9 : Vec Ideal S128x10 .bf16) (p : Fin 5000) (q : Fin 10) :
    k1_pay1 (F := Ideal) x0 x1 x9 (ix2 p q)
      = ∑ k : Fin 128, max (x0 (ix2 p k) + x1 (ix2 (0 : Fin 1) k)) (Ideal.ofBits .f32 0x00000000#32) * x9 (ix2 k q) := by
  unfold k1_pay1
  refine (Cert.Lib.MatmulPlain.matmul_plain_zero_apply (A := 5000) (K := 128) (B := 10) none _
    (shapeCast S128x10 x9 shapeCasts_S128x10_S128x10) p q).trans
    (Finset.sum_congr rfl fun k _ => ?_)
  rw [shapeCast_self x9 shapeCasts_S128x10_S128x10]
  exact congrArg (· * x9 (ix2 k q)) (relu_apply x0 x1 p k)

/-- The printed block index maps over the ten grid points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the rectified product of the arrays as the region finds them. -/
theorem flushed_eq (c : Dev nD) (t : Fin cfg1.N) :
    (dat1 V c).flushed 3 t = ((cfg1.win 3).blk t).view.read (Elt Ideal) (hid (V c main_v53) (V c main_v36) (V c main_v35)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x10) hz]
  obtain ⟨e0, e1, e2, e3, e4, e5, e6, e7⟩ := idx_facts t
  funext j
  obtain ⟨p, q, rfl⟩ : ∃ (p : Fin 5000) (q : Fin 10), j = ix2 p q := ⟨j 0, j 1, eq_ix2 j⟩
  show k1_pay1 (F := Ideal) (iblk1 V c 0 t) (iblk1 V c 1 t) (iblk1 V c 2 t) (ix2 p q)
    = hid (V c main_v53) (V c main_v36) (V c main_v35) (((cfg1.win 3).blk t).view.emb (ix2 p q))
  refine (pay_apply (iblk1 V c 0 t) (iblk1 V c 1 t) (iblk1 V c 2 t) p q).trans ?_
  unfold hid hidAt
  refine Finset.sum_congr rfl fun k _ => ?_
  have hA : iblk1 V c 0 t (ix2 p k)
      = V c main_v53 (ix2 (⟨((((cfg1.win 3).blk t).view.emb (ix2 p q)) 0).val, idx2_lt0 _⟩ : Fin 50000) k) := by
    show V c main_v53 (((cfg1.win 0).blk t).view.emb (ix2 p k)) = _
    refine congrArg (V c main_v53) ?_
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hB : iblk1 V c 1 t (ix2 (0 : Fin 1) k) = V c main_v36 (ix2 (0 : Fin 1) k) := by
    show V c main_v36 (((cfg1.win 1).blk t).view.emb (ix2 (0 : Fin 1) k)) = _
    refine congrArg (V c main_v36) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hW : iblk1 V c 2 t (ix2 k q)
      = V c main_v35 (ix2 k (⟨((((cfg1.win 3).blk t).view.emb (ix2 p q)) 1).val, idx2_lt1 _⟩ : Fin 10)) := by
    show V c main_v35 (((cfg1.win 2).blk t).view.emb (ix2 k q)) = _
    refine congrArg (V c main_v35) ?_
    funext a; apply Fin.ext
    match a with
    | ⟨0, _⟩ => show win1_2.index t (0 : Fin 2) * 128 + 1 * k.val = k.val; omega
    | ⟨1, _⟩ => show win1_2.index t (1 : Fin 2) * 10 + 1 * q.val = win1_3.index t (1 : Fin 2) * 10 + 1 * q.val; omega
  rw [hA, hB, hW]

/-- An index of the output array is in point t's block iff its row is in [5000·t, 5000·t + 5000). -/
theorem mem_blk (t : Fin cfg1.N) (i : S50000x10.Idx) :
    i ∈ ((cfg1.win 3).blk t).view.set ↔ ∀ a : Fin 2, win1_3.index t a * S5000x10.size a ≤ (i a).val ∧ (i a).val < win1_3.index t a * S5000x10.size a + S5000x10.size a := by
  show i ∈ ((View.whole main_v54).slice (win1_3.rect t)).set ↔ _
  rw [View.set_slice_whole, Rect.mem_set_unit]
  exact Iff.rfl

/-- Every index of the output array is in the block of the point its row falls in. -/
theorem cover (i : S50000x10.Idx) : ∃ t : Fin cfg1.N, (cfg1.win 3).flush t = true ∧ i ∈ ((cfg1.win 3).blk t).view.set := by
  have hi0 : (i 0).val < 50000 := (i 0).isLt
  have hi1 : (i 1).val < 10 := (i 1).isLt
  refine ⟨⟨(i 0).val / 5000, by show (i 0).val / 5000 < 10; omega⟩, flush1_3 _, ?_⟩
  rw [mem_blk]
  obtain ⟨e0, e1, e2, e3, e4, e5, e6, e7⟩ := idx_facts ⟨(i 0).val / 5000, by show (i 0).val / 5000 < 10; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 10 ≤ (i 1).val ∧ (i 1).val < win1_3.index _ (1 : Fin 2) * 10 + 10
    rw [e7]; omega

/-- The output array after the region. -/
theorem final (c : Dev nD) : (dat1 V c).arrAt 3 cfg1.N = hid (V c main_v53) (V c main_v36) (V c main_v35) :=
  (dat1 V c).arrAt_eq_of_cover 3 (hid (V c main_v53) (V c main_v36) (V c main_v35)) (fun t _ => flushed_eq V c t) cover

end Cert.KernelIdeal.Region1

end
-- ==== Proof.LogSoftmaxRow.lean ====
/-
  Row-wise log-softmax on the extended reals, and the kernel body's payload read at an entry.

  For a row y of ten extended reals let M be its maximum, taken as the fold of max from ⊥ over the ten
  coordinates. The log-softmax of the row at coordinate c is

      (y c - M) - log (∑ c', exp (y c' - M)).

  This module defines that function (lsm), reads the layout operations and the two one-axis reductions
  of a [5000,10] vector at an index (the reductions over axis 1 are, at row r, the fold of max and the
  sum over the ten coordinates of row r), and concludes that the generated payload of the third kernel
  body, read at (r, c), is lsm of row r of the input plus the bias row, at c. The host's maximum over
  axis 1 of a [50000,10] array is read the same way, for the reference's side.
-/
import proofs.«128580_j23347442221163_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LogSoftmaxRow

open Idealize.ShloMosaic Idealize.ShloMosaic.ValueIdx

/-- The shapes met here, as literals: a block of rows, its column of row results (flat and as a
    one-column matrix), the bias row; the reference's whole array, its column, the scalar shape. -/
abbrev SRC : Shape := ⟨2, ![5000, 10]⟩
abbrev SR : Shape := ⟨1, ![5000]⟩
abbrev SR1 : Shape := ⟨2, ![5000, 1]⟩
abbrev S1C : Shape := ⟨2, ![1, 10]⟩
abbrev HRC : Shape := ⟨2, ![50000, 10]⟩
abbrev HR : Shape := ⟨1, ![50000]⟩
abbrev H0 : Shape := ⟨0, ![]⟩

/-- Row-wise log-softmax on the extended reals: with M the maximum of the row (the fold of max from ⊥),
    the entry minus M, minus the log of the sum of the exponentials of the entries minus M. -/
def lsm (y : Fin 10 → EReal) (c : Fin 10) : EReal :=
  (y c - Finset.univ.fold max ⊥ y) - Ideal.log (∑ c' : Fin 10, Ideal.exp (y c' - Finset.univ.fold max ⊥ y))

/-- The f32 pattern of -∞ denotes the bottom of the extended reals. -/
theorem ofBits_negInf : Ideal.ofBits .f32 0xFF800000#32 = ⊥ := by simp [Ideal.ofBits, Ideal.ieee]

/-! ## Layout operations of the block, read at (r, c) -/

/-- A column [n] viewed as [n,1] reads its entry r at (r, 0): both have row-major position r. -/
theorem colCast_apply {α : Type} (v : SR.Idx → α) (h : SR.ShapeCasts SR1) (r : Fin 5000) (z : Fin 1) :
    shapeCast SR1 v h (ix2 r z) = v (ix1 r) := by
  refine shapeCast_apply v h (ix2 r z) (ix1 r) ?_
  rw [Shape.rowMajor_val_two, Shape.rowMajor_val_one]
  show r.val = r.val * 1 + z.val
  have := z.isLt; omega

/-- A one-column matrix broadcast along the rows reads (r, 0) at (r, c). -/
theorem colBcast_apply {α : Type} (w : SR1.Idx → α) (h : SR1.Broadcasts SRC) (r : Fin 5000) (c : Fin 10) :
    broadcastTo SRC w h (ix2 r c) = w (ix2 r (0 : Fin 1)) := by
  refine broadcastTo_apply w h (ix2 r c) (ix2 r (0 : Fin 1)) (fun a => match a with
    | ⟨0, _⟩ => by show r.val = if (5000 : Nat) = 1 then 0 else r.val; rw [if_neg (by decide)]
    | ⟨1, _⟩ => by show 0 = if (1 : Nat) = 1 then 0 else c.val; rw [if_pos rfl])

/-- A one-row matrix broadcast down the rows reads (0, c) at (r, c). -/
theorem rowBcast_apply {α : Type} (w : S1C.Idx → α) (h : S1C.Broadcasts SRC) (r : Fin 5000) (c : Fin 10) :
    broadcastTo SRC w h (ix2 r c) = w (ix2 (0 : Fin 1) c) := by
  refine broadcastTo_apply w h (ix2 r c) (ix2 (0 : Fin 1) c) (fun a => match a with
    | ⟨0, _⟩ => by show 0 = if (1 : Nat) = 1 then 0 else r.val; rw [if_pos rfl]
    | ⟨1, _⟩ => by show c.val = if (10 : Nat) = 1 then 0 else c.val; rw [if_neg (by decide)])

/-! ## The two reductions over axis 1, read at row r -/

/-- Over the row index r, the source index with k inserted on axis 1 is (r, k). -/
theorem lift_row (h : SRC.Reduces [1] SR) (r : Fin 5000) (k : Fin 10) : h.lift (ix1 r) k = ix2 r k := by
  funext a; match a with | ⟨0, _⟩ => rfl | ⟨1, _⟩ => rfl

/-- The maximum over axis 1 from -∞ is, at row r, the fold of max from ⊥ over the row's ten entries. -/
theorem rowMax_apply (v : FVec Ideal SRC .f32) (h : SRC.Reduces [1] SR) (hφ : FKind.Formats .f32)
    (hacc : (0xFF800000#32 : BitVec 32) = FKind.maximumf.neutral .f32 hφ) (r : Fin 5000) :
    multiReduction .maximumf [1] SR v 0xFF800000#32 h hφ hacc (ix1 r)
      = (Finset.univ : Finset (Fin 10)).fold max ⊥ (fun c' => v (ix2 r c')) := by
  refine (Ideal.multiReduction_maximumf_single v _ h hφ hacc (ix1 r)).trans ?_
  rw [Ideal.ofBits_def, ofBits_negInf]
  exact congrArg (fun f => (Finset.univ : Finset (Fin 10)).fold max ⊥ f) (funext fun k => congrArg v (lift_row h r k))

/-- The sum over axis 1 is, at row r, the sum of the row's ten entries. -/
theorem rowSum_apply (v : FVec Ideal SRC .f32) (h : SRC.Reduces [1] SR) (hφ : FKind.Formats .f32)
    (hacc : (0x00000000#32 : BitVec 32) = FKind.add.neutral .f32 hφ) (r : Fin 5000) :
    multiReduction .add [1] SR v 0x00000000#32 h hφ hacc (ix1 r) = ∑ c' : Fin 10, v (ix2 r c') := by
  refine (Ideal.multiReduction_add_single v _ h hφ hacc (ix1 r)).trans ?_
  exact Finset.sum_congr rfl fun k _ => congrArg v (lift_row h r k)

/-! ## The kernel's computation -/

/-- From the biased logits v on: subtract the row maximum broadcast back, exponentiate, sum the row, take the
    log, broadcast it back and subtract. Read at (r, c) this is lsm of row r of v, at c. -/
theorem core_row (v5 : FVec Ideal SRC .f32) (hr : SRC.Reduces [1] SR) (hc : SR.ShapeCasts SR1) (hb : SR1.Broadcasts SRC)
    (hφ : FKind.Formats .f32) (hm : (0xFF800000#32 : BitVec 32) = FKind.maximumf.neutral .f32 hφ)
    (hs : (0x00000000#32 : BitVec 32) = FKind.add.neutral .f32 hφ) (r : Fin 5000) (c : Fin 10) :
    subf (subf v5 (broadcastTo SRC (shapeCast SR1 (multiReduction .maximumf [1] SR v5 0xFF800000#32 hr hφ hm) hc) hb))
      (broadcastTo SRC (log (shapeCast SR1 (multiReduction .add [1] SR
        (exp (subf v5 (broadcastTo SRC (shapeCast SR1 (multiReduction .maximumf [1] SR v5 0xFF800000#32 hr hφ hm) hc) hb)))
        0x00000000#32 hr hφ hs) hc)) hb) (ix2 r c)
      = lsm (fun c' => v5 (ix2 r c')) c := by
  -- the maximum, broadcast back, is at every entry of row r the fold of max over the row
  have hM : ∀ c' : Fin 10, (broadcastTo SRC (shapeCast SR1 (multiReduction .maximumf [1] SR v5 0xFF800000#32 hr hφ hm) hc) hb) (ix2 r c')
      = (Finset.univ : Finset (Fin 10)).fold max ⊥ (fun c'' => v5 (ix2 r c'')) := fun c' => by
    rw [colBcast_apply, colCast_apply, rowMax_apply]
  show (v5 (ix2 r c) - (broadcastTo SRC (shapeCast SR1 (multiReduction .maximumf [1] SR v5 0xFF800000#32 hr hφ hm) hc) hb) (ix2 r c))
    - (broadcastTo SRC (log _) hb) (ix2 r c) = _
  rw [hM c, colBcast_apply]
  show _ - Ideal.log (shapeCast SR1 _ hc (ix2 r (0 : Fin 1))) = _
  rw [colCast_apply, rowSum_apply]
  unfold lsm
  refine congrArg (fun t => _ - Ideal.log t) (Finset.sum_congr rfl fun c' _ => ?_)
  show Ideal.exp (v5 (ix2 r c') - _) = _
  rw [hM c']

open Cert.KernelIdeal Cert.KernelIdeal.Gen in
/-- The kernel body's payload at (r, c) is the log-softmax of row r of the input plus the bias row, at c. -/
theorem kernel_row (x0 : Vec Ideal Cert.KernelIdeal.S5000x10 .f32) (x1 : Vec Ideal Cert.KernelIdeal.S1x10 .f32)
    (r : Fin 5000) (c : Fin 10) :
    Cert.KernelIdeal.Gen.k2_pay1 (F := Ideal) x0 x1 (ix2 r c)
      = lsm (fun c' => x0 (ix2 r c') + x1 (ix2 (0 : Fin 1) c')) c := by
  -- the biased logits at (r, c'): the two casts of a shape to itself are the identity, the bias row is read at (0, c')
  have h5 : ∀ c' : Fin 10,
      (addf (shapeCast S5000x10 x0 shapeCasts_S5000x10_S5000x10)
        (broadcastTo S5000x10 (shapeCast S1x10 x1 shapeCasts_S1x10_S1x10) broadcasts_S1x10_S5000x10) : FVec Ideal S5000x10 .f32) (ix2 r c')
        = x0 (ix2 r c') + x1 (ix2 (0 : Fin 1) c') := fun c' => by
    rw [shapeCast_self, shapeCast_self]
    show x0 (ix2 r c') + broadcastTo S5000x10 x1 broadcasts_S1x10_S5000x10 (ix2 r c') = _
    rw [rowBcast_apply]
  refine (core_row (addf (shapeCast S5000x10 x0 shapeCasts_S5000x10_S5000x10)
        (broadcastTo S5000x10 (shapeCast S1x10 x1 shapeCasts_S1x10_S1x10) broadcasts_S1x10_S5000x10))
      reduces_S5000x10_S5000 shapeCasts_S5000_S5000x1 broadcasts_S5000x1_S5000x10 (.inl rfl) rfl rfl r c).trans ?_
  exact congrArg (fun y => lsm y c) (funext h5)

/-! ## The host's maximum over axis 1 -/

/-- Over the row index i of the whole array, the source index with k inserted on axis 1 is (i, k). -/
theorem hostLift_row (h : HRC.Reduces [1] HR) (i : Fin 50000) (k : Fin 10) : h.lift (ix1 i) k = ix2 i k := by
  funext a; match a with | ⟨0, _⟩ => rfl | ⟨1, _⟩ => rfl

/-- The host's maximum over axis 1 from an initial value is, at row i, the fold of max from that value over the
    row's ten entries (max commutes and associates, so the order the fold is taken in does not matter). -/
theorem hostRowMax_apply (y : HRC.Idx → EReal) (init : H0.Idx → EReal) (h' : HRC.ReducesTo [1] HR) (hu : 0 < H0.numel)
    (i : Fin 50000) :
    Host.reduce (FloatOps.maximumf (F := Ideal) (φ := .f32)) y init h' hu (ix1 i)
      = (Finset.univ : Finset (Fin 10)).fold max (init (Shape.Idx.first hu)) (fun c' => y (ix2 i c')) := by
  have h : HRC.Reduces [1] HR := by decide
  refine (Host.reduce_eq_fold_single _ y init h' h hu (ix1 i)).trans ?_
  exact congrArg (fun f => (Finset.univ : Finset (Fin 10)).fold max (init (Shape.Idx.first hu)) f)
    (funext fun k => congrArg y (hostLift_row h i k))

end Cert.LogSoftmaxRow
-- ==== Proof.Region2.lean ====
/-
  The third kernel region: bias and a row-wise log-softmax, row-blocked. Point t of the ten-point grid loads rows
  [5000·t, 5000·t + 5000) of the aggregated logits A (10 columns) and the bias row B (1 × 10), and stores the same rows of
  the log-softmax of A + B taken along each row. A row's log-softmax depends on that row only, and the ten row blocks
  tile the 50000 rows, so the output ends holding, at (r, c), the log-softmax of row r of A + B at column c.
-/
import proofs.«128580_j23347442221163_2_alg».proof.Proof.Gen.KernelIdeal.Frame
import proofs.«128580_j23347442221163_2_alg».proof.Proof.LogSoftmaxRow
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LogSoftmaxRow (lsm kernel_row)

/-- The (r, c) entry of the row-wise log-softmax of A + B. -/
def lsmAt (A : S50000x10.Idx → EReal) (B : S1x10.Idx → EReal) (r : Fin 50000) (c : Fin 10) : EReal :=
  lsm (fun c' => A (ix2 r c') + B (ix2 (0 : Fin 1) c')) c

/-- The same as an array. -/
def lsmArr (A : S50000x10.Idx → EReal) (B : S1x10.Idx → EReal) : S50000x10.Idx → EReal :=
  fun i => lsmAt A B ⟨(i 0).val, idx2_lt0 i⟩ ⟨(i 1).val, idx2_lt1 i⟩

theorem hz : (![0, 0] : Fin 2 → Nat) = fun _ => 0 := funext fun a => by fin_cases a <;> rfl

/-- The printed block index maps over the ten grid points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the row-wise log-softmax of the arrays as the region finds them. -/
theorem flushed_eq (c : Dev nD) (t : Fin cfg2.N) :
    (dat2 V c).flushed 2 t = ((cfg2.win 2).blk t).view.read (Elt Ideal) (lsmArr (V c main_v69) (V c main_v37)) := by
  show (cfg2.win 2).cut (grid2.coords t) ((dat2 V c).after 2 t) = _
  rw [after2_2]
  unfold out2_2
  rw [View.canon_unit_zero hz]
  simp only [View.ld_unit_zero (S := S5000x10) hz, View.ld_unit_zero (S := S1x10) hz]
  obtain ⟨e0, e1, e2, e3, e4, e5⟩ := idx_facts t
  funext j
  obtain ⟨p, q, rfl⟩ : ∃ (p : Fin 5000) (q : Fin 10), j = ix2 p q := ⟨j 0, j 1, eq_ix2 j⟩
  show k2_pay1 (F := Ideal) (iblk2 V c 0 t) (iblk2 V c 1 t) (ix2 p q)
    = lsmArr (V c main_v69) (V c main_v37) (((cfg2.win 2).blk t).view.emb (ix2 p q))
  refine (kernel_row (iblk2 V c 0 t) (iblk2 V c 1 t) p q).trans ?_
  unfold lsmArr lsmAt
  have hq : (⟨((((cfg2.win 2).blk t).view.emb (ix2 p q)) 1).val, idx2_lt1 _⟩ : Fin 10) = q :=
    Fin.ext (by show win2_2.index t (1 : Fin 2) * 10 + 1 * q.val = q.val; omega)
  rw [hq]
  refine congrArg (fun y => lsm y q) (funext fun c' => ?_)
  have hA : iblk2 V c 0 t (ix2 p c')
      = V c main_v69 (ix2 (⟨((((cfg2.win 2).blk t).view.emb (ix2 p q)) 0).val, idx2_lt0 _⟩ : Fin 50000) c') := by
    show V c main_v69 (((cfg2.win 0).blk t).view.emb (ix2 p c')) = _
    refine congrArg (V c main_v69) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 10 + 1 * c'.val = c'.val; omega
  have hB : iblk2 V c 1 t (ix2 (0 : Fin 1) c') = V c main_v37 (ix2 (0 : Fin 1) c') := by
    show V c main_v37 (((cfg2.win 1).blk t).view.emb (ix2 (0 : Fin 1) c')) = _
    refine congrArg (V c main_v37) ?_
    funext a; apply Fin.ext
    match a with
    | ⟨0, _⟩ => show win2_1.index t (0 : Fin 2) * 1 + 1 * 0 = 0; omega
    | ⟨1, _⟩ => show win2_1.index t (1 : Fin 2) * 10 + 1 * c'.val = c'.val; omega
  beta_reduce
  rw [hA, hB]

/-- An index of the output array is in point t's block iff its row is in [5000·t, 5000·t + 5000). -/
theorem mem_blk (t : Fin cfg2.N) (i : S50000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole main_v70).slice (win2_2.rect t)).set ↔ _
  rw [View.set_slice_whole, Rect.mem_set_unit]
  exact Iff.rfl

/-- Every index of the output array is in the block of the point its row falls in. -/
theorem cover (i : S50000x10.Idx) : ∃ t : Fin cfg2.N, (cfg2.win 2).flush t = true ∧ i ∈ ((cfg2.win 2).blk t).view.set := by
  have hi0 : (i 0).val < 50000 := (i 0).isLt
  have hi1 : (i 1).val < 10 := (i 1).isLt
  refine ⟨⟨(i 0).val / 5000, by show (i 0).val / 5000 < 10; omega⟩, flush2_2 _, ?_⟩
  rw [mem_blk]
  obtain ⟨e0, e1, e2, e3, e4, e5⟩ := idx_facts ⟨(i 0).val / 5000, by show (i 0).val / 5000 < 10; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 10 ≤ (i 1).val ∧ (i 1).val < win2_2.index _ (1 : Fin 2) * 10 + 10
    rw [e5]; omega

/-- The output array after the region. -/
theorem final (c : Dev nD) : (dat2 V c).arrAt 2 cfg2.N = lsmArr (V c main_v69) (V c main_v37) :=
  (dat2 V c).arrAt_eq_of_cover 2 (lsmArr (V c main_v69) (V c main_v37)) (fun t _ => flushed_eq V c t) cover

end Cert.KernelIdeal.Region2

end
-- ==== Proof.AggDefs.lean ====
/-
  The neighbourhood aggregation of a graph convolution, as each of the two programs spells it.

  Both take the edge list (source and destination node of each of 1600000 edges, as 32-bit words), the edges'
  normalisation weights, each node's self-loop weight, and a feature array with one row per node (50000 rows).
  The kernel's program appends one self-loop row per node to the edge list — source and destination the node itself,
  weight the self-loop weight — and makes ONE accumulating scatter over the 1650000 rows: row e contributes the feature
  row of its (wrapped, clamped) source, times its weight, to the node its destination names. The reference scatters
  the 1600000 edge rows only and then adds each node's own feature row times its self-loop weight.
-/
import proofs.«128580_j23347442221163_2_alg».proof.Proof.Gen.KernelIdeal
import proofs.«128580_j23347442221163_2_alg».proof.Proof.Gen.ReferenceIdeal
import Idealize.ShloMosaic.PureOps.Ideal

noncomputable section

namespace Cert.Agg

open Idealize.ShloMosaic

namespace K
open Cert.KernelIdeal Cert.KernelIdeal.Facts₀

/-- A word list of the 1600000 edges followed by the node numbers 0 … 49999 (the self-loops' ends). -/
def fullIdx (a : IVec S1600000 32) : IVec S1650000 32 :=
  concatenate S1650000 0 [⟨S1600000, a⟩, ⟨S50000, iotaInDim S50000 32 0⟩] concatenates_S1600000_S50000_S1650000_d0

/-- The edges' weights followed by the nodes' self-loop weights. -/
def fullNorm (nrm : FVec Ideal S1600000 .f32) (slf : FVec Ideal S50000 .f32) : FVec Ideal S1650000 .f32 :=
  concatenate S1650000 0 [⟨S1600000, nrm⟩, ⟨S50000, slf⟩] concatenates_S1600000_S50000_S1650000_d0

/-- A negative index counts from the end: 50000 is added to it. -/
def wrapIdx (a : IVec S1650000 32) : IVec S1650000 32 :=
  select (cmpi .slt a (broadcastInDim S1650000 ![] bcast_S_S1650000 (constantI S_ 32 0#32)))
    (addi a (broadcastInDim S1650000 ![] bcast_S_S1650000 (constantI S_ 32 50000#32))) a

/-- The idealized kernel's aggregation of a 128-column feature array: one accumulating scatter over the 1650000 rows
    of the edge list extended by the self-loops. -/
def aggK128 (src dst : IVec S1600000 32) (nrm : FVec Ideal S1600000 .f32) (slf : FVec Ideal S50000 .f32)
    (xw : FVec Ideal S50000x128 .f32) : FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 (fullIdx dst))
    (mulf (F := Ideal)
      (extf (F := Ideal) .f32 (Host.gather gather_S50000x128_S1650000x1_S1650000x128_1_0_n_n_0_1_1128
          (truncf (F := Ideal) .bf16 xw bitsLt_bf16_f32)
          (broadcastInDim S1650000x1 ![0] bcast_S1650000_S1650000x1_0 (wrapIdx (fullIdx src)))) bitsLt_bf16_f32)
      (broadcastInDim S1650000x128 ![0, 1] bcast_S1650000x1_S1650000x128_0_1
        (broadcastInDim S1650000x1 ![0] bcast_S1650000_S1650000x1_0 (fullNorm nrm slf))))

/-- The idealized kernel's aggregation of a 10-column feature array: one accumulating scatter over the 1650000 rows
    of the edge list extended by the self-loops. -/
def aggK10 (src dst : IVec S1600000 32) (nrm : FVec Ideal S1600000 .f32) (slf : FVec Ideal S50000 .f32)
    (xw : FVec Ideal S50000x10 .f32) : FVec Ideal S50000x10 .f32 :=
  Host.scatterAdd (F := Ideal) scatter_S50000x10_S1650000x1_S1650000x10_1_0_0_1
    (broadcastInDim S50000x10 ![] bcast_S_S50000x10 (constant (F := Ideal) S_ .f32 0x00000000#32))
    (broadcastInDim S1650000x1 ![0] bcast_S1650000_S1650000x1_0 (fullIdx dst))
    (mulf (F := Ideal)
      (extf (F := Ideal) .f32 (Host.gather gather_S50000x10_S1650000x1_S1650000x10_1_0_n_n_0_1_110
          (truncf (F := Ideal) .bf16 xw bitsLt_bf16_f32)
          (broadcastInDim S1650000x1 ![0] bcast_S1650000_S1650000x1_0 (wrapIdx (fullIdx src)))) bitsLt_bf16_f32)
      (broadcastInDim S1650000x10 ![0, 1] bcast_S1650000x1_S1650000x10_0_1
        (broadcastInDim S1650000x1 ![0] bcast_S1650000_S1650000x1_0 (fullNorm nrm slf))))

end K

namespace R
open Cert.ReferenceIdeal Cert.ReferenceIdeal.Facts₀

/-- A negative index counts from the end: 50000 is added to it. -/
def wrapIdx (a : IVec S1600000 32) : IVec S1600000 32 :=
  select (cmpi .slt a (broadcastInDim S1600000 ![] bcast_S_S1600000 (constantI S_ 32 0#32)))
    (addi a (broadcastInDim S1600000 ![] bcast_S_S1600000 (constantI S_ 32 50000#32))) a

/-- The idealized reference's aggregation of a 128-column feature array: an accumulating scatter over the 1600000 edge
    rows, then the self-loop term added. -/
def aggR128 (src dst : IVec S1600000 32) (nrm : FVec Ideal S1600000 .f32) (slf : FVec Ideal S50000 .f32)
    (xw : FVec Ideal S50000x128 .f32) : FVec Ideal S50000x128 .f32 :=
  addf (F := Ideal)
    (Host.scatterAdd (F := Ideal) scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 dst)
      (mulf (F := Ideal)
        (Host.gather gather_S50000x128_S1600000x1_S1600000x128_1_0_n_n_0_1_1128 xw
          (broadcastInDim S1600000x1 ![0] bcast_S1600000_S1600000x1_0 (wrapIdx src)))
        (broadcastInDim S1600000x128 ![0, 1] bcast_S1600000x1_S1600000x128_0_1
          (broadcastInDim S1600000x1 ![0] bcast_S1600000_S1600000x1_0 nrm))))
    (mulf (F := Ideal) xw
      (broadcastInDim S50000x128 ![0, 1] bcast_S50000x1_S50000x128_0_1
        (broadcastInDim S50000x1 ![0] bcast_S50000_S50000x1_0 slf)))

/-- The idealized reference's aggregation of a 10-column feature array: an accumulating scatter over the 1600000 edge
    rows, then the self-loop term added. -/
def aggR10 (src dst : IVec S1600000 32) (nrm : FVec Ideal S1600000 .f32) (slf : FVec Ideal S50000 .f32)
    (xw : FVec Ideal S50000x10 .f32) : FVec Ideal S50000x10 .f32 :=
  addf (F := Ideal)
    (Host.scatterAdd (F := Ideal) scatter_S50000x10_S1600000x1_S1600000x10_1_0_0_1
      (broadcastInDim S50000x10 ![] bcast_S_S50000x10 (constant (F := Ideal) S_ .f32 0x00000000#32))
      (broadcastInDim S1600000x1 ![0] bcast_S1600000_S1600000x1_0 dst)
      (mulf (F := Ideal)
        (Host.gather gather_S50000x10_S1600000x1_S1600000x10_1_0_n_n_0_1_110 xw
          (broadcastInDim S1600000x1 ![0] bcast_S1600000_S1600000x1_0 (wrapIdx src)))
        (broadcastInDim S1600000x10 ![0, 1] bcast_S1600000x1_S1600000x10_0_1
          (broadcastInDim S1600000x1 ![0] bcast_S1600000_S1600000x1_0 nrm))))
    (mulf (F := Ideal) xw
      (broadcastInDim S50000x10 ![0, 1] bcast_S50000x1_S50000x10_0_1
        (broadcastInDim S50000x1 ![0] bcast_S50000_S50000x1_0 slf)))

end R

end Cert.Agg

end
-- ==== Proof.HostK.lean ====
/-
  The idealized kernel's result as one expression of the buffer contents at its first region's entry.

  Walking back from the last boundary: the third region leaves the row-wise log-softmax of (second aggregation + bias);
  the host stretch before it computes the second aggregation from the second region's output; the second region
  leaves max(first aggregation + bias, 0) · W2; the host stretch before that computes the first aggregation from the
  first region's output; the first region leaves X · W1. The extended edge lists, the biases and the weights are
  computed before the first region and only read afterwards, so at every later boundary they still hold their
  first-region-entry contents.
-/
import proofs.«128580_j23347442221163_2_alg».proof.Proof.KernelRun
import proofs.«128580_j23347442221163_2_alg».proof.Proof.Region0
import proofs.«128580_j23347442221163_2_alg».proof.Proof.Region1
import proofs.«128580_j23347442221163_2_alg».proof.Proof.Region2
import proofs.«128580_j23347442221163_2_alg».proof.Proof.AggDefs
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

/-- The accumulating scatter over the extended edge list, as a function of the three extended lists and the features. -/
def aggKfull128 (fsrc fdst : IVec S1650000 32) (fnrm : FVec Ideal S1650000 .f32) (xw : FVec Ideal S50000x128 .f32) :
    FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 fdst)
    (mulf (F := Ideal)
      (extf (F := Ideal) .f32 (Host.gather gather_S50000x128_S1650000x1_S1650000x128_1_0_n_n_0_1_1128
          (truncf (F := Ideal) .bf16 xw bitsLt_bf16_f32)
          (broadcastInDim S1650000x1 ![0] bcast_S1650000_S1650000x1_0 (Cert.Agg.K.wrapIdx fsrc))) bitsLt_bf16_f32)
      (broadcastInDim S1650000x128 ![0, 1] bcast_S1650000x1_S1650000x128_0_1
        (broadcastInDim S1650000x1 ![0] bcast_S1650000_S1650000x1_0 fnrm)))

/-- On lists that are concatenations it is the aggregation of the edge list and the self-loops. -/
theorem aggKfull128_concat (src dst : IVec S1600000 32) (nrm : FVec Ideal S1600000 .f32) (slf : FVec Ideal S50000 .f32)
    (xw : FVec Ideal S50000x128 .f32) :
    aggKfull128 (Cert.Agg.K.fullIdx src) (Cert.Agg.K.fullIdx dst) (Cert.Agg.K.fullNorm nrm slf) xw
      = Cert.Agg.K.aggK128 src dst nrm slf xw := rfl

/-- The accumulating scatter over the extended edge list, as a function of the three extended lists and the features. -/
def aggKfull10 (fsrc fdst : IVec S1650000 32) (fnrm : FVec Ideal S1650000 .f32) (xw : FVec Ideal S50000x10 .f32) :
    FVec Ideal S50000x10 .f32 :=
  Host.scatterAdd (F := Ideal) scatter_S50000x10_S1650000x1_S1650000x10_1_0_0_1
    (broadcastInDim S50000x10 ![] bcast_S_S50000x10 (constant (F := Ideal) S_ .f32 0x00000000#32))
    (broadcastInDim S1650000x1 ![0] bcast_S1650000_S1650000x1_0 fdst)
    (mulf (F := Ideal)
      (extf (F := Ideal) .f32 (Host.gather gather_S50000x10_S1650000x1_S1650000x10_1_0_n_n_0_1_110
          (truncf (F := Ideal) .bf16 xw bitsLt_bf16_f32)
          (broadcastInDim S1650000x1 ![0] bcast_S1650000_S1650000x1_0 (Cert.Agg.K.wrapIdx fsrc))) bitsLt_bf16_f32)
      (broadcastInDim S1650000x10 ![0, 1] bcast_S1650000x1_S1650000x10_0_1
        (broadcastInDim S1650000x1 ![0] bcast_S1650000_S1650000x1_0 fnrm)))

/-- On lists that are concatenations it is the aggregation of the edge list and the self-loops. -/
theorem aggKfull10_concat (src dst : IVec S1600000 32) (nrm : FVec Ideal S1600000 .f32) (slf : FVec Ideal S50000 .f32)
    (xw : FVec Ideal S50000x10 .f32) :
    aggKfull10 (Cert.Agg.K.fullIdx src) (Cert.Agg.K.fullIdx dst) (Cert.Agg.K.fullNorm nrm slf) xw
      = Cert.Agg.K.aggK10 src dst nrm slf xw := rfl

variable (m : (ℓ : Loc nD τ sig) → Buf (Elt Ideal) ℓ) (ρ : Dev nD → PrngReg)

/-! ## Buffers that later segments only read keep their contents -/

theorem W7_v37 (c : Dev nD) : W7 m ρ c (Proc.devRef .tc main_v37) = W6 m ρ c (Proc.devRef .tc main_v37) :=
  StableHlo.after_of_forall_not_mem (b := _) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W6_v31 (c : Dev nD) : W6 m ρ c (Proc.devRef .tc main_v31) = W5 m ρ c (Proc.devRef .tc main_v31) :=
  W6_of_ne m ρ c main_v31 (by decide)
theorem W6_v32 (c : Dev nD) : W6 m ρ c (Proc.devRef .tc main_v32) = W5 m ρ c (Proc.devRef .tc main_v32) :=
  W6_of_ne m ρ c main_v32 (by decide)
theorem W6_v33 (c : Dev nD) : W6 m ρ c (Proc.devRef .tc main_v33) = W5 m ρ c (Proc.devRef .tc main_v33) :=
  W6_of_ne m ρ c main_v33 (by decide)
theorem W6_v37 (c : Dev nD) : W6 m ρ c (Proc.devRef .tc main_v37) = W5 m ρ c (Proc.devRef .tc main_v37) :=
  W6_of_ne m ρ c main_v37 (by decide)
theorem W5_v31 (c : Dev nD) : W5 m ρ c (Proc.devRef .tc main_v31) = W4 m ρ c (Proc.devRef .tc main_v31) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v32 (c : Dev nD) : W5 m ρ c (Proc.devRef .tc main_v32) = W4 m ρ c (Proc.devRef .tc main_v32) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v33 (c : Dev nD) : W5 m ρ c (Proc.devRef .tc main_v33) = W4 m ρ c (Proc.devRef .tc main_v33) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v35 (c : Dev nD) : W5 m ρ c (Proc.devRef .tc main_v35) = W4 m ρ c (Proc.devRef .tc main_v35) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v36 (c : Dev nD) : W5 m ρ c (Proc.devRef .tc main_v36) = W4 m ρ c (Proc.devRef .tc main_v36) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v37 (c : Dev nD) : W5 m ρ c (Proc.devRef .tc main_v37) = W4 m ρ c (Proc.devRef .tc main_v37) :=
  StableHlo.after_of_forall_not_mem (b := _) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W4_v31 (c : Dev nD) : W4 m ρ c (Proc.devRef .tc main_v31) = W3 m ρ c (Proc.devRef .tc main_v31) :=
  W4_of_ne m ρ c main_v31 (by decide)
theorem W4_v32 (c : Dev nD) : W4 m ρ c (Proc.devRef .tc main_v32) = W3 m ρ c (Proc.devRef .tc main_v32) :=
  W4_of_ne m ρ c main_v32 (by decide)
theorem W4_v33 (c : Dev nD) : W4 m ρ c (Proc.devRef .tc main_v33) = W3 m ρ c (Proc.devRef .tc main_v33) :=
  W4_of_ne m ρ c main_v33 (by decide)
theorem W4_v35 (c : Dev nD) : W4 m ρ c (Proc.devRef .tc main_v35) = W3 m ρ c (Proc.devRef .tc main_v35) :=
  W4_of_ne m ρ c main_v35 (by decide)
theorem W4_v36 (c : Dev nD) : W4 m ρ c (Proc.devRef .tc main_v36) = W3 m ρ c (Proc.devRef .tc main_v36) :=
  W4_of_ne m ρ c main_v36 (by decide)
theorem W4_v37 (c : Dev nD) : W4 m ρ c (Proc.devRef .tc main_v37) = W3 m ρ c (Proc.devRef .tc main_v37) :=
  W4_of_ne m ρ c main_v37 (by decide)

/-- The first region reads the feature matrix as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := _) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem (b := _) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-! ## The three regions' outputs and the two aggregations -/

/-- After the first region its output holds X · W1. -/
theorem W4_v38 (c : Dev nD) : W4 m ρ c (Proc.devRef .tc main_v38)
    = Region0.prod (W3 m ρ c (Proc.devRef .tc main_arg0)) (W3 m ρ c (Proc.devRef .tc main_v34)) :=
  (W4_arr m ρ c 2).trans (Region0.final (V3 m ρ) c)

set_option maxHeartbeats 4000000 in
/-- The host stretch after it computes the first aggregation. -/
theorem W5_v53 (c : Dev nD) : W5 m ρ c (Proc.devRef .tc main_v53)
    = aggKfull128 (W4 m ρ c (Proc.devRef .tc main_v31)) (W4 m ρ c (Proc.devRef .tc main_v32))
        (W4 m ρ c (Proc.devRef .tc main_v33)) (W4 m ρ c (Proc.devRef .tc main_v38)) := by
  dsimp only [W5, hostOps1]
  after_results_simp
  rfl

/-- After the second region its output holds max(aggregation + bias, 0) · W2. -/
theorem W6_v54 (c : Dev nD) : W6 m ρ c (Proc.devRef .tc main_v54)
    = Region1.hid (W5 m ρ c (Proc.devRef .tc main_v53)) (W5 m ρ c (Proc.devRef .tc main_v36)) (W5 m ρ c (Proc.devRef .tc main_v35)) :=
  (W6_arr m ρ c 3).trans (Region1.final (V5 m ρ) c)

set_option maxHeartbeats 4000000 in
/-- The host stretch after it computes the second aggregation. -/
theorem W7_v69 (c : Dev nD) : W7 m ρ c (Proc.devRef .tc main_v69)
    = aggKfull10 (W6 m ρ c (Proc.devRef .tc main_v31)) (W6 m ρ c (Proc.devRef .tc main_v32))
        (W6 m ρ c (Proc.devRef .tc main_v33)) (W6 m ρ c (Proc.devRef .tc main_v54)) := by
  dsimp only [W7, hostOps2]
  after_results_simp
  rfl

/-- After the third region its output holds the row-wise log-softmax of aggregation + bias. -/
theorem W8_v70 (c : Dev nD) : W8 m ρ c (Proc.devRef .tc main_v70)
    = Region2.lsmArr (W7 m ρ c (Proc.devRef .tc main_v69)) (W7 m ρ c (Proc.devRef .tc main_v37)) :=
  (W8_arr m ρ c 2).trans (Region2.final (V7 m ρ) c)

/-- The result, as one expression of the first region's entry contents. -/
theorem result (c : Dev nD) : W8 m ρ c (Proc.devRef .tc main_v70)
    = Region2.lsmArr
        (aggKfull10 (W3 m ρ c (Proc.devRef .tc main_v31)) (W3 m ρ c (Proc.devRef .tc main_v32)) (W3 m ρ c (Proc.devRef .tc main_v33))
          (Region1.hid
            (aggKfull128 (W3 m ρ c (Proc.devRef .tc main_v31)) (W3 m ρ c (Proc.devRef .tc main_v32)) (W3 m ρ c (Proc.devRef .tc main_v33))
              (Region0.prod (m ((c : Thread nD τ).loc main_arg0)) (W3 m ρ c (Proc.devRef .tc main_v34))))
            (W3 m ρ c (Proc.devRef .tc main_v36)) (W3 m ρ c (Proc.devRef .tc main_v35))))
        (W3 m ρ c (Proc.devRef .tc main_v37)) := by
  rw [W8_v70, W7_v69, W7_v37, W6_v54, W6_v31, W6_v32, W6_v33, W6_v37, W5_v53, W5_v31, W5_v32, W5_v33, W5_v35, W5_v36, W5_v37,
    W4_v38, W4_v31, W4_v32, W4_v33, W4_v35, W4_v36, W4_v37, W3_arg0]

end Cert.KernelIdeal.HostK

end
-- ==== Proof.NormDefs.lean ====
/-
  The graph's normalisation, as each of the two programs spells it: the edge list's two halves, the nodes' degrees,
  their inverse square roots, the edges' symmetric normalisation weights and the self-loop weights. The two programs
  apply the same operations; the two spellings differ only in which program's shape names and side conditions they
  cite, and are equal as functions.
-/
import proofs.«128580_j23347442221163_2_alg».proof.Proof.Gen.KernelIdeal
import proofs.«128580_j23347442221163_2_alg».proof.Proof.Gen.ReferenceIdeal
import Idealize.ShloMosaic.PureOps.Ideal

noncomputable section

namespace Cert.Norm

open Idealize.ShloMosaic

variable {F : FTy → Type} [FloatOps F]

namespace K
open Cert.KernelIdeal Cert.KernelIdeal.Facts₀

/-- The edges' source nodes: row 0 of the 2 × 1600000 edge list. -/
def srcOf (a1 : IVec S2x1600000 32) : IVec S1600000 32 :=
  shapeCast S1600000 (extractStridedSlice S1x1600000 ![0, 0] a1 slices_S2x1600000_S1x1600000_0_0) shapeCasts_S1x1600000_S1600000

/-- The edges' destination nodes: row 1 of the edge list. -/
def dstOf (a1 : IVec S2x1600000 32) : IVec S1600000 32 :=
  shapeCast S1600000 (extractStridedSlice S1x1600000 ![1, 0] a1 slices_S2x1600000_S1x1600000_1_0) shapeCasts_S1x1600000_S1600000

/-- A node's degree: the weights of the edges that end at it, summed, plus one for its self-loop. -/
def degOf (dst : IVec S1600000 32) (ew : FVec F S1600000 .f32) : FVec F S50000 .f32 :=
  addf (F := F)
    (Host.scatterAdd (F := F) scatter_S50000_S1600000x1_S1600000_n_0_0_1
      (broadcastInDim S50000 ![] bcast_S_S50000 (constant (F := F) S_ .f32 0x00000000#32))
      (broadcastInDim S1600000x1 ![0] bcast_S1600000_S1600000x1_0 dst) ew)
    (broadcastInDim S50000 ![] bcast_S_S50000 (constant (F := F) S_ .f32 0x3F800000#32))

/-- The inverse square root of the degree where it is positive, zero elsewhere. -/
def dinvOf (dst : IVec S1600000 32) (ew : FVec F S1600000 .f32) : FVec F S50000 .f32 :=
  select (cmpf (F := F) .ogt (degOf dst ew) (broadcastInDim S50000 ![] bcast_S_S50000 (constant (F := F) S_ .f32 0x00000000#32)))
    (Host.rsqrt (F := F) (degOf dst ew))
    (broadcastInDim S50000 ![] bcast_S_S50000 (id (constant (F := F) S_ .f32 0x00000000#32)))

/-- A negative node index counts from the end: 50000 is added to it. -/
def wrapEdge (a : IVec S1600000 32) : IVec S1600000 32 :=
  select (cmpi .slt a (broadcastInDim S1600000 ![] bcast_S_S1600000 (constantI S_ 32 0#32)))
    (addi a (broadcastInDim S1600000 ![] bcast_S_S1600000 (constantI S_ 32 50000#32))) a

/-- An edge's normalisation weight: its source's inverse-root degree, times its weight, times its destination's. -/
def nrmOf (src dst : IVec S1600000 32) (ew : FVec F S1600000 .f32) : FVec F S1600000 .f32 :=
  mulf (F := F)
    (mulf (F := F)
      (Host.gather gather_S50000_S1600000x1_S1600000_n_0_n_n_0_1_1 (dinvOf dst ew)
        (broadcastInDim S1600000x1 ![0] bcast_S1600000_S1600000x1_0 (wrapEdge src)))
      ew)
    (Host.gather gather_S50000_S1600000x1_S1600000_n_0_n_n_0_1_1 (dinvOf dst ew)
      (broadcastInDim S1600000x1 ![0] bcast_S1600000_S1600000x1_0 (wrapEdge dst)))

/-- A node's self-loop weight: its inverse-root degree squared. -/
def slfOf (dst : IVec S1600000 32) (ew : FVec F S1600000 .f32) : FVec F S50000 .f32 :=
  mulf (F := F) (dinvOf dst ew) (dinvOf dst ew)

end K

namespace R
open Cert.ReferenceIdeal Cert.ReferenceIdeal.Facts₀

/-- The edges' source nodes: row 0 of the 2 × 1600000 edge list. -/
def srcOf (a1 : IVec S2x1600000 32) : IVec S1600000 32 :=
  shapeCast S1600000 (extractStridedSlice S1x1600000 ![0, 0] a1 slices_S2x1600000_S1x1600000_0_0) shapeCasts_S1x1600000_S1600000

/-- The edges' destination nodes: row 1 of the edge list. -/
def dstOf (a1 : IVec S2x1600000 32) : IVec S1600000 32 :=
  shapeCast S1600000 (extractStridedSlice S1x1600000 ![1, 0] a1 slices_S2x1600000_S1x1600000_1_0) shapeCasts_S1x1600000_S1600000

/-- A node's degree: the weights of the edges that end at it, summed, plus one for its self-loop. -/
def degOf (dst : IVec S1600000 32) (ew : FVec F S1600000 .f32) : FVec F S50000 .f32 :=
  addf (F := F)
    (Host.scatterAdd (F := F) scatter_S50000_S1600000x1_S1600000_n_0_0_1
      (broadcastInDim S50000 ![] bcast_S_S50000 (constant (F := F) S_ .f32 0x00000000#32))
      (broadcastInDim S1600000x1 ![0] bcast_S1600000_S1600000x1_0 dst) ew)
    (broadcastInDim S50000 ![] bcast_S_S50000 (constant (F := F) S_ .f32 0x3F800000#32))

/-- The inverse square root of the degree where it is positive, zero elsewhere. -/
def dinvOf (dst : IVec S1600000 32) (ew : FVec F S1600000 .f32) : FVec F S50000 .f32 :=
  select (cmpf (F := F) .ogt (degOf dst ew) (broadcastInDim S50000 ![] bcast_S_S50000 (constant (F := F) S_ .f32 0x00000000#32)))
    (Host.rsqrt (F := F) (degOf dst ew))
    (broadcastInDim S50000 ![] bcast_S_S50000 (id (constant (F := F) S_ .f32 0x00000000#32)))

/-- A negative node index counts from the end: 50000 is added to it. -/
def wrapEdge (a : IVec S1600000 32) : IVec S1600000 32 :=
  select (cmpi .slt a (broadcastInDim S1600000 ![] bcast_S_S1600000 (constantI S_ 32 0#32)))
    (addi a (broadcastInDim S1600000 ![] bcast_S_S1600000 (constantI S_ 32 50000#32))) a

/-- An edge's normalisation weight: its source's inverse-root degree, times its weight, times its destination's. -/
def nrmOf (src dst : IVec S1600000 32) (ew : FVec F S1600000 .f32) : FVec F S1600000 .f32 :=
  mulf (F := F)
    (mulf (F := F)
      (Host.gather gather_S50000_S1600000x1_S1600000_n_0_n_n_0_1_1 (dinvOf dst ew)
        (broadcastInDim S1600000x1 ![0] bcast_S1600000_S1600000x1_0 (wrapEdge src)))
      ew)
    (Host.gather gather_S50000_S1600000x1_S1600000_n_0_n_n_0_1_1 (dinvOf dst ew)
      (broadcastInDim S1600000x1 ![0] bcast_S1600000_S1600000x1_0 (wrapEdge dst)))

/-- A node's self-loop weight: its inverse-root degree squared. -/
def slfOf (dst : IVec S1600000 32) (ew : FVec F S1600000 .f32) : FVec F S50000 .f32 :=
  mulf (F := F) (dinvOf dst ew) (dinvOf dst ew)

end R

/-! ## The two spellings are one function -/

theorem srcOf_eq (a1 : IVec Cert.KernelIdeal.S2x1600000 32) : K.srcOf a1 = R.srcOf a1 := rfl
theorem dstOf_eq (a1 : IVec Cert.KernelIdeal.S2x1600000 32) : K.dstOf a1 = R.dstOf a1 := rfl
theorem degOf_eq (dst : IVec Cert.KernelIdeal.S1600000 32) (ew : FVec F Cert.KernelIdeal.S1600000 .f32) :
    K.degOf dst ew = R.degOf dst ew := rfl
theorem dinvOf_eq (dst : IVec Cert.KernelIdeal.S1600000 32) (ew : FVec F Cert.KernelIdeal.S1600000 .f32) :
    K.dinvOf dst ew = R.dinvOf dst ew := by
  unfold K.dinvOf R.dinvOf
  rw [degOf_eq]
theorem wrapEdge_eq (a : IVec Cert.KernelIdeal.S1600000 32) : K.wrapEdge a = R.wrapEdge a := rfl
theorem nrmOf_eq (src dst : IVec Cert.KernelIdeal.S1600000 32) (ew : FVec F Cert.KernelIdeal.S1600000 .f32) :
    K.nrmOf src dst ew = R.nrmOf src dst ew := by
  unfold K.nrmOf R.nrmOf
  rw [dinvOf_eq, wrapEdge_eq, wrapEdge_eq]
  rfl
theorem slfOf_eq (dst : IVec Cert.KernelIdeal.S1600000 32) (ew : FVec F Cert.KernelIdeal.S1600000 .f32) :
    K.slfOf dst ew = R.slfOf dst ew := by
  unfold K.slfOf R.slfOf
  rw [dinvOf_eq]

end Cert.Norm

end
-- ==== Proof.KernelVal.lean ====
/-
  The idealized kernel's result as one expression of its arguments, in the vocabulary shared with the reference.

  Before its first region the kernel's @main computes, on the host, the edge list's two halves, the degree
  normalisation, the edges' weights and the self-loop weights, extends the lists by the self-loops, rounds the two weight matrices (the identity on exact values)
  and reshapes the two bias vectors into rows. With those contents named, the result is the row-wise log-softmax of
  (second aggregation + bias), the aggregations taken the kernel's way.
-/
import proofs.«128580_j23347442221163_2_alg».proof.Proof.HostK
import proofs.«128580_j23347442221163_2_alg».proof.Proof.NormDefs
import Idealize.ShloMosaic.Lib.StableHlo.Run

set_option maxRecDepth 16384

noncomputable section

namespace Cert.KernelIdeal.KernelVal

open Cert.KernelIdeal Cert.KernelIdeal.Gen
open Idealize.ShloMosaic Idealize.ShloMosaic.TcCoe Idealize.SL.Sem Idealize.ShloMosaic.StableHlo

variable {F : FTy → Type} [FloatOps F]

/-! ## The transports of the inlined call's values are identities -/

theorem toBuf_main_cst_2 (h hd hs) (w : (⟨S_, .f32⟩ : BufTy).Contents (Elt F)) :
    (StableHlo.TRef.of (sig := sig) (T := ⟨S_, .f32⟩) main_cst_2 h hd hs).toBuf (Val := Elt F) w = w := rfl
theorem ofBuf_main_cst_2 (h hd hs) (w : (⟨S_, .f32⟩ : BufTy).Contents (Elt F)) :
    (StableHlo.TRef.of (sig := sig) (T := ⟨S_, .f32⟩) main_cst_2 h hd hs).ofBuf (Val := Elt F) w = w := rfl
theorem toBuf_main_call0_v0 (h hd hs) (w : (⟨S_, .f32⟩ : BufTy).Contents (Elt F)) :
    (StableHlo.TRef.of (sig := sig) (T := ⟨S_, .f32⟩) main_call0_v0 h hd hs).toBuf (Val := Elt F) w = w := rfl
theorem ofBuf_main_call0_v0 (h hd hs) (w : (⟨S_, .f32⟩ : BufTy).Contents (Elt F)) :
    (StableHlo.TRef.of (sig := sig) (T := ⟨S_, .f32⟩) main_call0_v0 h hd hs).ofBuf (Val := Elt F) w = w := rfl
theorem toBuf_main_call0_v1 (h hd hs) (w : (⟨S50000, .f32⟩ : BufTy).Contents (Elt F)) :
    (StableHlo.TRef.of (sig := sig) (T := ⟨S50000, .f32⟩) main_call0_v1 h hd hs).toBuf (Val := Elt F) w = w := rfl
theorem ofBuf_main_call0_v1 (h hd hs) (w : (⟨S50000, .f32⟩ : BufTy).Contents (Elt F)) :
    (StableHlo.TRef.of (sig := sig) (T := ⟨S50000, .f32⟩) main_call0_v1 h hd hs).ofBuf (Val := Elt F) w = w := rfl
theorem toBuf_main_v10 (h hd hs) (w : (⟨S50000, .i1⟩ : BufTy).Contents (Elt F)) :
    (StableHlo.TRef.of (sig := sig) (T := ⟨S50000, .i1⟩) main_v10 h hd hs).toBuf (Val := Elt F) w = w := rfl
theorem ofBuf_main_v10 (h hd hs) (w : (⟨S50000, .i1⟩ : BufTy).Contents (Elt F)) :
    (StableHlo.TRef.of (sig := sig) (T := ⟨S50000, .i1⟩) main_v10 h hd hs).ofBuf (Val := Elt F) w = w := rfl
theorem toBuf_main_v11 (h hd hs) (w : (⟨S50000, .f32⟩ : BufTy).Contents (Elt F)) :
    (StableHlo.TRef.of (sig := sig) (T := ⟨S50000, .f32⟩) main_v11 h hd hs).toBuf (Val := Elt F) w = w := rfl
theorem ofBuf_main_v11 (h hd hs) (w : (⟨S50000, .f32⟩ : BufTy).Contents (Elt F)) :
    (StableHlo.TRef.of (sig := sig) (T := ⟨S50000, .f32⟩) main_v11 h hd hs).ofBuf (Val := Elt F) w = w := rfl
theorem toBuf_main_v12 (h hd hs) (w : (⟨S50000, .f32⟩ : BufTy).Contents (Elt F)) :
    (StableHlo.TRef.of (sig := sig) (T := ⟨S50000, .f32⟩) main_v12 h hd hs).toBuf (Val := Elt F) w = w := rfl
theorem ofBuf_main_v12 (h hd hs) (w : (⟨S50000, .f32⟩ : BufTy).Contents (Elt F)) :
    (StableHlo.TRef.of (sig := sig) (T := ⟨S50000, .f32⟩) main_v12 h hd hs).ofBuf (Val := Elt F) w = w := rfl

variable (m : (ℓ : Loc nD τ sig) → Buf (Elt F) ℓ) (ρ : Dev nD → PrngReg)

/-! ## The carried buffers at the first region's entry -/

set_option maxHeartbeats 8000000 in
/-- The extended source list: the edges' sources followed by the node numbers. -/
theorem W3_v31 (c : Dev nD) : W3 m ρ c (Proc.devRef .tc main_v31) = Cert.Agg.K.fullIdx (Cert.Norm.K.srcOf (m ((c : Thread nD τ).loc main_arg1))) := by
  dsimp only [W3, W2, W1, W0, hostOps0_2, hostOps0_1, hostOps0]
  after_results_simp
  rfl

set_option maxHeartbeats 8000000 in
/-- The extended destination list. -/
theorem W3_v32 (c : Dev nD) : W3 m ρ c (Proc.devRef .tc main_v32) = Cert.Agg.K.fullIdx (Cert.Norm.K.dstOf (m ((c : Thread nD τ).loc main_arg1))) := by
  dsimp only [W3, W2, W1, W0, hostOps0_2, hostOps0_1, hostOps0]
  after_results_simp
  rfl

set_option maxHeartbeats 8000000 in
/-- The extended weight list: the edges' normalisation weights followed by the self-loop weights. -/
theorem W3_v33 (c : Dev nD) : W3 m ρ c (Proc.devRef .tc main_v33)
    = concatenate S1650000 0 [⟨S1600000, Cert.Norm.K.nrmOf (Cert.Norm.K.srcOf (m ((c : Thread nD τ).loc main_arg1))) (Cert.Norm.K.dstOf (m ((c : Thread nD τ).loc main_arg1))) (m ((c : Thread nD τ).loc main_arg2))⟩, ⟨S50000, Cert.Norm.K.slfOf (Cert.Norm.K.dstOf (m ((c : Thread nD τ).loc main_arg1))) (m ((c : Thread nD τ).loc main_arg2))⟩] concatenates_S1600000_S50000_S1650000_d0 := by
  dsimp only [W3, W2, W1, W0, hostOps0_2, hostOps0_1, hostOps0]
  after_results_simp
  refine congrArg₂ (fun a b => concatenate S1650000 0 [⟨S1600000, a⟩, ⟨S50000, b⟩] concatenates_S1600000_S50000_S1650000_d0) ?_ ?_
  · after_results_simp
    simp only [toBuf_main_cst_2, ofBuf_main_cst_2, toBuf_main_call0_v0, ofBuf_main_call0_v0, toBuf_main_call0_v1, ofBuf_main_call0_v1, toBuf_main_v10, ofBuf_main_v10, toBuf_main_v11, ofBuf_main_v11, toBuf_main_v12, ofBuf_main_v12]
    rfl
  · after_results_simp
    simp only [toBuf_main_cst_2, ofBuf_main_cst_2, toBuf_main_call0_v0, ofBuf_main_call0_v0, toBuf_main_call0_v1, ofBuf_main_call0_v1, toBuf_main_v10, ofBuf_main_v10, toBuf_main_v11, ofBuf_main_v11, toBuf_main_v12, ofBuf_main_v12]
    rfl

set_option maxHeartbeats 8000000 in
/-- The first weight matrix, rounded to the narrower format. -/
theorem W3_v34 (c : Dev nD) : W3 m ρ c (Proc.devRef .tc main_v34) = truncf .bf16 (m ((c : Thread nD τ).loc main_arg3)) bitsLt_bf16_f32 := by
  dsimp only [W3, W2, W1, W0, hostOps0_2, hostOps0_1, hostOps0]
  after_results_simp

set_option maxHeartbeats 8000000 in
/-- The second weight matrix, rounded. -/
theorem W3_v35 (c : Dev nD) : W3 m ρ c (Proc.devRef .tc main_v35) = truncf .bf16 (m ((c : Thread nD τ).loc main_arg5)) bitsLt_bf16_f32 := by
  dsimp only [W3, W2, W1, W0, hostOps0_2, hostOps0_1, hostOps0]
  after_results_simp

set_option maxHeartbeats 8000000 in
/-- The first bias vector as a row. -/
theorem W3_v36 (c : Dev nD) : W3 m ρ c (Proc.devRef .tc main_v36)
    = shapeCast S1x128 (m ((c : Thread nD τ).loc main_arg4)) shapeCasts_S128_S1x128 := by
  dsimp only [W3, W2, W1, W0, hostOps0_2, hostOps0_1, hostOps0]
  after_results_simp
  rfl

set_option maxHeartbeats 8000000 in
/-- The second bias vector as a row. -/
theorem W3_v37 (c : Dev nD) : W3 m ρ c (Proc.devRef .tc main_v37)
    = shapeCast S1x10 (m ((c : Thread nD τ).loc main_arg6)) shapeCasts_S10_S1x10 := by
  dsimp only [W3, W2, W1, W0, hostOps0_2, hostOps0_1, hostOps0]
  after_results_simp
  rfl

end Cert.KernelIdeal.KernelVal

end
-- ==== Proof.LogSoftmaxRef.lean ====
/-
  The reference's row-wise log-softmax read at an entry.

  The generated stage functions of the reference's log-softmax take the input array y : [50000,10], reduce it
  over axis 1 by max from -∞, take the max of that column with a column of -∞ (which changes nothing: ⊥ is the
  least extended real), broadcast the column back, subtract, exponentiate, sum over axis 1 from 0, take the log,
  broadcast back and subtract. Read at (i, c), stage by stage, this is the function lsm of row i of y, at c:
  the same expression the kernel body's payload was read as.
-/
import proofs.«128580_j23347442221163_2_alg».proof.Proof.LogSoftmaxRow
import proofs.«128580_j23347442221163_2_alg».proof.Proof.RefRead

noncomputable section

namespace Cert.LogSoftmaxRow

open Idealize.ShloMosaic Idealize.ShloMosaic.ValueIdx

/-- lsm from its two parts: an entry minus the row maximum, and the exponentials of the entries minus the maximum. -/
theorem lsm_of_parts (y : Fin 10 → EReal) (c : Fin 10) (a : EReal) (s : Fin 10 → EReal)
    (ha : a = y c - Finset.univ.fold max ⊥ y) (hs : ∀ k, s k = Ideal.exp (y k - Finset.univ.fold max ⊥ y)) :
    a - Ideal.log (∑ k : Fin 10, s k) = lsm y c := by
  unfold lsm
  rw [ha, Finset.sum_congr rfl fun k _ => hs k]

open Cert.ReferenceIdeal Cert.ReferenceIdeal.Read in
/-- The reference's log-softmax stage at (i, c) is the log-softmax of row i of its input, at c. -/
theorem reference_row (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x10, .f32⟩ : BufTy).Contents (Elt Ideal)) (x6 : (⟨S10, .f32⟩ : BufTy).Contents (Elt Ideal))
    (i : Fin 50000) (c : Fin 10) :
    Cert.ReferenceIdeal.Read.val_main_v99 (F := Ideal) x0 x1 x2 x3 x4 x5 x6 (ix2 i c)
      = lsm (fun c' => Cert.ReferenceIdeal.Read.val_main_v98 (F := Ideal) x0 x1 x2 x3 x4 x5 x6 (ix2 i c')) c := by
  -- the row maximum, broadcast back, is at every entry of row i the fold of max over the row
  have hM : ∀ c' : Fin 10, val_main_call3_v4 (F := Ideal) x0 x1 x2 x3 x4 x5 x6 (ix2 i c')
      = (Finset.univ : Finset (Fin 10)).fold max ⊥ (fun c'' => val_main_v98 (F := Ideal) x0 x1 x2 x3 x4 x5 x6 (ix2 i c'')) := fun c' => by
    have e : idx_main_call3_v3 (idx_main_call3_v4 (ix2 i c')) = ix1 i := by
      funext a; match a with | ⟨0, _⟩ => rfl
    rw [val_main_call3_v4_apply, val_main_call3_v3_apply, val_main_call3_v2_apply, val_main_call3_v1_apply,
      val_main_call3_cst_0_apply, e]
    unfold val_main_call3_v0
    rw [hostRowMax_apply, val_main_call3_cst_apply, Ideal.maximumf_def, Ideal.ofBits_def, ofBits_negInf]
    exact max_eq_right bot_le
  have h5 : ∀ c' : Fin 10, val_main_call3_v5 (F := Ideal) x0 x1 x2 x3 x4 x5 x6 (ix2 i c')
      = val_main_v98 (F := Ideal) x0 x1 x2 x3 x4 x5 x6 (ix2 i c')
        - (Finset.univ : Finset (Fin 10)).fold max ⊥ (fun c'' => val_main_v98 (F := Ideal) x0 x1 x2 x3 x4 x5 x6 (ix2 i c'')) := fun c' => by
    rw [val_main_call3_v5_apply, Ideal.subf_def, hM c']
  have e8 : idx_main_call3_v8 (idx_main_call3_v10 (ix2 i c)) = ix1 i := by
    funext a; match a with | ⟨0, _⟩ => rfl
  rw [val_main_v99_apply, Ideal.subf_def, h5 c, val_main_call3_v10_apply, val_main_call3_v9_apply,
    Ideal.hostUnary_log_def, val_main_call3_v8_apply, e8, val_main_call3_v7_apply, val_main_call3_cst_1_apply,
    Ideal.ofBits_def, Ideal.ofBits_zero_f32, zero_add]
  refine lsm_of_parts (fun c' => val_main_v98 (F := Ideal) x0 x1 x2 x3 x4 x5 x6 (ix2 i c')) c _
    (fun k => val_main_call3_v6 (F := Ideal) x0 x1 x2 x3 x4 x5 x6 (idx_main_call3_v7 (ix1 i) k)) rfl (fun k => ?_)
  have e7 : idx_main_call3_v7 (ix1 i) k = ix2 i k := by
    funext a; match a with | ⟨0, _⟩ => rfl | ⟨1, _⟩ => rfl
  show val_main_call3_v6 (F := Ideal) x0 x1 x2 x3 x4 x5 x6 (idx_main_call3_v7 (ix1 i) k) = _
  rw [e7, val_main_call3_v6_apply, Ideal.hostUnary_exp_def, h5 k]

end Cert.LogSoftmaxRow
-- ==== Proof.RefG.lean ====
/-
  The idealized reference's result as one expression of its arguments, in the vocabulary shared with the kernel.

  Stage by stage: the first product is X · W1; the first layer's aggregation is the reference's aggregation of it
  (the scatter over the edge rows plus the self-loop term); the rectified, biased hidden layer times W2 is the
  second product; the second aggregation is computed with the normalisation weights a second time — by the same
  operations of the same arguments, hence the same weights —; the result is the row-wise log-softmax of the second
  aggregation plus the bias.
-/
import proofs.«128580_j23347442221163_2_alg».proof.Proof.RefRead
import proofs.«128580_j23347442221163_2_alg».proof.Proof.Region0
import proofs.«128580_j23347442221163_2_alg».proof.Proof.Region1
import proofs.«128580_j23347442221163_2_alg».proof.Proof.Region2
import proofs.«128580_j23347442221163_2_alg».proof.Proof.AggDefs
import proofs.«128580_j23347442221163_2_alg».proof.Proof.NormDefs
import proofs.«128580_j23347442221163_2_alg».proof.Proof.LogSoftmaxRef
import Idealize.ShloMosaic.Lib.ValueIdx

set_option maxRecDepth 16384

noncomputable section

namespace Cert.RefG

open Cert.ReferenceIdeal Cert.ReferenceIdeal.Read
open Idealize.ShloMosaic Idealize.ShloMosaic.ValueIdx
open Cert.KernelIdeal (Region0.prod Region0.prodAt Region1.hid Region1.hidAt Region2.lsmArr Region2.lsmAt)

variable (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x10, .f32⟩ : BufTy).Contents (Elt Ideal)) (x6 : (⟨S10, .f32⟩ : BufTy).Contents (Elt Ideal))

/-- The first product, entry by entry, is X · W1. -/
theorem v4_eq : val_main_v4 (F := Ideal) x0 x3 = Region0.prod x0 x3 := by
  funext i
  obtain ⟨r, c, rfl⟩ : ∃ (r : Fin 50000) (c : Fin 128), i = ix2 r c := ⟨i 0, i 1, eq_ix2 i⟩
  rw [val_main_v4_apply]
  show _ = Region0.prodAt x0 x3 r c
  unfold Region0.prodAt
  refine Finset.sum_congr rfl fun k _ => ?_
  have e1 : lidx_main_v4 (ix2 r c) k = ix2 r k := funext fun a => Fin.ext (by match a with | ⟨0, _⟩ => rfl | ⟨1, _⟩ => rfl)
  have e2 : ridx_main_v4 (ix2 r c) k = ix2 k c := funext fun a => Fin.ext (by match a with | ⟨0, _⟩ => rfl | ⟨1, _⟩ => rfl)
  rw [e1, e2]

/-- The first layer's aggregation is the reference's aggregation of the first product. -/
theorem v47_eq : val_main_v47 (F := Ideal) x0 x1 x2 x3
    = Cert.Agg.R.aggR128 (val_main_v1 (F := Ideal) x1) (val_main_v3 (F := Ideal) x1) (val_main_v29 (F := Ideal) x1 x2)
        (val_main_v43 (F := Ideal) x1 x2) (val_main_v4 (F := Ideal) x0 x3) := by
  unfold val_main_v47 val_main_v46 val_main_v45 val_main_v44 val_main_v42 val_main_v41 val_main_v40 val_main_cst_8 val_main_v39 val_main_v38 val_main_v37 val_main_v36 val_main_v35 val_main_v34 val_main_v33 val_main_v32 val_main_c_7 val_main_v31 val_main_v30 val_main_c_6 Cert.Agg.R.aggR128 Cert.Agg.R.wrapIdx
  rfl

/-- The second product, entry by entry, is max(first aggregation + bias, 0) · W2. -/
theorem v52_eq : val_main_v52 (F := Ideal) x0 x1 x2 x3 x4 x5
    = Region1.hid (val_main_v47 (F := Ideal) x0 x1 x2 x3) (val_main_v48 (F := Ideal) x4) x5 := by
  funext i
  obtain ⟨r, c, rfl⟩ : ∃ (r : Fin 50000) (c : Fin 10), i = ix2 r c := ⟨i 0, i 1, eq_ix2 i⟩
  rw [val_main_v52_apply]
  show _ = Region1.hidAt (val_main_v47 (F := Ideal) x0 x1 x2 x3) (val_main_v48 (F := Ideal) x4) x5 r c
  unfold Region1.hidAt
  refine Finset.sum_congr rfl fun k _ => ?_
  have e1 : lidx_main_v52 (ix2 r c) k = ix2 r k := funext fun a => Fin.ext (by match a with | ⟨0, _⟩ => rfl | ⟨1, _⟩ => rfl)
  have e2 : ridx_main_v52 (ix2 r c) k = ix2 k c := funext fun a => Fin.ext (by match a with | ⟨0, _⟩ => rfl | ⟨1, _⟩ => rfl)
  have e3 : idx_main_v49 (ix2 r k) = ix2 (0 : Fin 1) k := funext fun a => Fin.ext (by match a with | ⟨0, _⟩ => rfl | ⟨1, _⟩ => rfl)
  rw [e1, e2, val_main_v51_apply, val_main_v50_apply, val_main_v49_apply, val_main_call1_v0_apply, val_main_call1_cst_apply, e3]
  rfl

/-- The normalisation weights are computed twice by the same operations of the same arguments. -/
theorem nrm2_eq : val_main_v77 (F := Ideal) x1 x2 = val_main_v29 (F := Ideal) x1 x2 := by
  simp only [val_main_cst, val_main_v5, val_main_v6, val_main_v7, val_main_cst_0, val_main_v8, val_main_v9, val_main_cst_1, val_main_v10, val_main_v11, val_main_v12, val_main_cst_2, val_main_call0_v0, val_main_call0_v1, val_main_v13, val_main_c, val_main_v14, val_main_v15, val_main_c_3, val_main_v16, val_main_v17, val_main_v18, val_main_v19, val_main_v20, val_main_v21, val_main_c_4, val_main_v22, val_main_v23, val_main_c_5, val_main_v24, val_main_v25, val_main_v26, val_main_v27, val_main_v28, val_main_v29, val_main_cst_9, val_main_v53, val_main_v54, val_main_v55, val_main_cst_10, val_main_v56, val_main_v57, val_main_cst_11, val_main_v58, val_main_v59, val_main_v60, val_main_cst_12, val_main_call2_v0, val_main_call2_v1, val_main_v61, val_main_c_13, val_main_v62, val_main_v63, val_main_c_14, val_main_v64, val_main_v65, val_main_v66, val_main_v67, val_main_v68, val_main_v69, val_main_c_15, val_main_v70, val_main_v71, val_main_c_16, val_main_v72, val_main_v73, val_main_v74, val_main_v75, val_main_v76, val_main_v77]
/-- So are the inverse square-root degrees, hence the self-loop weights. -/
theorem slf2_eq : val_main_v91 (F := Ideal) x1 x2 = val_main_v43 (F := Ideal) x1 x2 := by
  simp only [val_main_v91, val_main_v43, val_main_cst, val_main_v5, val_main_v6, val_main_v7, val_main_cst_0, val_main_v8, val_main_v9, val_main_cst_1, val_main_v10, val_main_v11, val_main_v12, val_main_cst_2, val_main_call0_v0, val_main_call0_v1, val_main_v13, val_main_cst_9, val_main_v53, val_main_v54, val_main_v55, val_main_cst_10, val_main_v56, val_main_v57, val_main_cst_11, val_main_v58, val_main_v59, val_main_v60, val_main_cst_12, val_main_call2_v0, val_main_call2_v1, val_main_v61]

/-- The second layer's aggregation is the reference's aggregation of the second product. -/
theorem v95_eq : val_main_v95 (F := Ideal) x0 x1 x2 x3 x4 x5
    = Cert.Agg.R.aggR10 (val_main_v1 (F := Ideal) x1) (val_main_v3 (F := Ideal) x1) (val_main_v77 (F := Ideal) x1 x2)
        (val_main_v91 (F := Ideal) x1 x2) (val_main_v52 (F := Ideal) x0 x1 x2 x3 x4 x5) := by
  unfold val_main_v95 val_main_v94 val_main_v93 val_main_v92 val_main_v90 val_main_v89 val_main_v88 val_main_cst_19 val_main_v87 val_main_v86 val_main_v85 val_main_v84 val_main_v83 val_main_v82 val_main_v81 val_main_v80 val_main_c_18 val_main_v79 val_main_v78 val_main_c_17 Cert.Agg.R.aggR10 Cert.Agg.R.wrapIdx
  rfl

/-- The result is the row-wise log-softmax of the second aggregation plus the bias. -/
theorem v99_eq : val_main_v99 (F := Ideal) x0 x1 x2 x3 x4 x5 x6
    = Region2.lsmArr (val_main_v95 (F := Ideal) x0 x1 x2 x3 x4 x5) (val_main_v96 (F := Ideal) x6) := by
  funext i
  obtain ⟨r, c, rfl⟩ : ∃ (r : Fin 50000) (c : Fin 10), i = ix2 r c := ⟨i 0, i 1, eq_ix2 i⟩
  rw [Cert.LogSoftmaxRow.reference_row]
  show _ = Region2.lsmAt (val_main_v95 (F := Ideal) x0 x1 x2 x3 x4 x5) (val_main_v96 (F := Ideal) x6) r c
  unfold Region2.lsmAt
  refine congrArg (fun y => Cert.LogSoftmaxRow.lsm y c) (funext fun c' => ?_)
  have e : idx_main_v97 (ix2 r c') = ix2 (0 : Fin 1) c' := funext fun a => Fin.ext (by match a with | ⟨0, _⟩ => rfl | ⟨1, _⟩ => rfl)
  rw [val_main_v98_apply, val_main_v97_apply, e]
  rfl

/-- The stage functions of the graph's normalisation are the shared definitions. -/
theorem v1_eq : val_main_v1 (F := Ideal) x1 = Cert.Norm.R.srcOf x1 := rfl
theorem v3_eq : val_main_v3 (F := Ideal) x1 = Cert.Norm.R.dstOf x1 := rfl
theorem v13_eq : val_main_v13 (F := Ideal) x1 x2 = Cert.Norm.R.dinvOf (F := Ideal) (Cert.Norm.R.dstOf x1) x2 := rfl
theorem v29_eq : val_main_v29 (F := Ideal) x1 x2 = Cert.Norm.R.nrmOf (F := Ideal) (Cert.Norm.R.srcOf x1) (Cert.Norm.R.dstOf x1) x2 := by
  unfold val_main_v29 val_main_v28 val_main_v27 val_main_v26 val_main_v25 val_main_v24 val_main_v23 val_main_c_5 val_main_v22 val_main_v21 val_main_c_4 val_main_v20 val_main_v19 val_main_v18 val_main_v17 val_main_v16 val_main_c_3 val_main_v15 val_main_v14 val_main_c Cert.Norm.R.nrmOf Cert.Norm.R.wrapEdge
  rw [v13_eq, v1_eq, v3_eq]
theorem v43_eq : val_main_v43 (F := Ideal) x1 x2 = Cert.Norm.R.slfOf (F := Ideal) (Cert.Norm.R.dstOf x1) x2 := by
  unfold val_main_v43 Cert.Norm.R.slfOf
  rw [v13_eq]

/-- The reference's result in the shared vocabulary. -/
theorem result : val_main_v99 (F := Ideal) x0 x1 x2 x3 x4 x5 x6
    = Region2.lsmArr
        (Cert.Agg.R.aggR10 (Cert.Norm.R.srcOf x1) (Cert.Norm.R.dstOf x1) (Cert.Norm.R.nrmOf (F := Ideal) (Cert.Norm.R.srcOf x1) (Cert.Norm.R.dstOf x1) x2) (Cert.Norm.R.slfOf (F := Ideal) (Cert.Norm.R.dstOf x1) x2)
          (Region1.hid
            (Cert.Agg.R.aggR128 (Cert.Norm.R.srcOf x1) (Cert.Norm.R.dstOf x1) (Cert.Norm.R.nrmOf (F := Ideal) (Cert.Norm.R.srcOf x1) (Cert.Norm.R.dstOf x1) x2) (Cert.Norm.R.slfOf (F := Ideal) (Cert.Norm.R.dstOf x1) x2)
              (Region0.prod x0 x3))
            (val_main_v48 (F := Ideal) x4) x5))
        (val_main_v96 (F := Ideal) x6) := by
  rw [v99_eq, v95_eq, nrm2_eq, slf2_eq, v52_eq, v47_eq, v4_eq, v29_eq, v43_eq, v1_eq, v3_eq]

end Cert.RefG

end
-- ==== Proof.LibRowsScatterGather.lean ====
/-
  SCATTER-ADD AND GATHER OVER THE ROWS OF A MATRIX, READ AT AN INDEX (shapes generic in `N M D`).

  (1) A scatter with an `add` body over rows: operand `x : [N, D]`, scatter indices `idx : [M, 1]`, updates
      `upd : [M, D]`, update_window_dims `[1]`, inserted_window_dims `[0]`, scatter_dims_to_operand_dims `[0]`,
      index_vector_dim `1`. Update element `(e, f')` lands at row `idx[e, 0]` (read signed, not clamped) and column
      `f'`, and is dropped when that row is outside `[0, N)`. So the result at `(i, f)` is
      `x(i, f) + ∑ e, (if idx[e, 0] = i then upd(e, f) else 0)` (`hostScatterAdd_rows_apply`).
  (2) A gather of rows: operand `x : [N, D]`, start indices `idx : [M, 1]`, result `[M, D]`, offset_dims `[1]`,
      collapsed_slice_dims `[0]`, start_index_map `[0]`, index_vector_dim `1`, slice_sizes `[1, D]`. Result element
      `(e, f)` is `x` at row `min idx[e, 0] (N − 1)` (the start read signed, negative values to `0`) and column `f`
      (`gather_rows_apply`).
  (3) Edge rows followed by self-loop rows: scattering `M + N` rows whose last `N` carry the indices `0 … N − 1` in
      order is scattering the first `M` rows and adding row `M + i` to node `i` (`hostScatterAdd_rows_concat_self`).
  (4) 32-bit index words: a natural below `2^31` reads back signed as itself (`toInt_ofNat32`), and the negative-index
      wrap `select (w <ₛ 0) (w + n) w` leaves its word unchanged (`wrap_ofNat32`, on a vector `wrap_apply_ofNat32`).
-/
import Idealize.ShloMosaic.Lib.ValueIdx

noncomputable section

open scoped BigOperators
open Idealize.ShloMosaic Idealize.ShloMosaic.ValueIdx

namespace Cert.Lib.RowsScatterGather

/-! ## Scatter-add over rows -/

/-- The dimension numbers of a scatter over ROWS: operand `[N, D]`, scatter indices `[M, 1]`, updates `[M, D]`;
    update row `e` is a window of one whole row, placed at the operand row its one start index `idx[e, 0]` names.
    Their conditions `wf` are decided on a program's literal shapes. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section Scatter
variable {N M D w : Nat} (wf : ScatterDims.WF ⟨2, ![N, D]⟩ ⟨2, ![M, 1]⟩ ⟨2, ![M, D]⟩ [1] [0] [0] 1)
  (idx : IVec ⟨2, ![M, 1]⟩ w) (e : Fin M) (f : Fin D)

/-- On the row axis the window of update element `(e, f)` starts at the start index `idx[e, 0]`, read signed. -/
theorem start_rows_zero :
    (rowScatterDims N M D wf).start (ix2 e f) idx (0 : Fin 2) = (idx (ix2 e (0 : Fin 1))).toInt := by
  unfold ScatterDims.start
  rw [dif_pos (show (0 : Fin 2) ∈ (rowScatterDims N M D wf).scatterDimsToOperandDims from List.mem_singleton.mpr rfl)]
  have hsi : (rowScatterDims N M D wf).siIdx (ix2 e f)
      ⟨List.idxOf (0 : Fin 2) (rowScatterDims N M D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the start index does not name, the window starts at `0`. -/
theorem start_rows_one :
    (rowScatterDims N M D wf).start (ix2 e f) idx (1 : Fin 2) = 0 := by
  unfold ScatterDims.start
  rw [dif_neg (show ¬ (1 : Fin 2) ∈ [(0 : Fin 2)] from by decide)]

/-- The row axis is an inserted axis: the window coordinate there is `0`. -/
theorem window_rows_zero : (rowScatterDims N M D wf).window (ix2 e f) (0 : Fin 2) = 0 := by
  unfold ScatterDims.window
  have hk : ¬ (0 : Fin 2) ∈ (rowScatterDims N M D wf).sKept := by
    show ¬ (0 : Fin 2) ∈ (List.finRange 2).filter (· ∉ [(0 : Fin 2)])
    decide
  rw [dif_neg hk]

/-- The column axis carries the window: the window coordinate there is the update's column `f`. -/
theorem window_rows_one : (rowScatterDims N M D wf).window (ix2 e f) (1 : Fin 2) = f.val := by
  unfold ScatterDims.window
  have hk : (1 : Fin 2) ∈ (rowScatterDims N M D wf).sKept := by
    show (1 : Fin 2) ∈ (List.finRange 2).filter (· ∉ [(0 : Fin 2)])
    decide
  rw [dif_pos hk]
  rfl

/-- The landing index of update element `(e, f')`: row the signed start index, column `f'`; it is
    operand element `(i, f)` exactly when `f' = f` and the signed start index is `i`. -/
theorem resultIdx?_rows_eq_some_iff (f' : Fin D) (i : Fin N) :
    (rowScatterDims N M D wf).resultIdx? (ix2 e f') idx = some (ix2 i f)
      ↔ f' = f ∧ (idx (ix2 e (0 : Fin 1))).toInt = (i.val : ℤ) := by
  have h0s := start_rows_zero wf idx e f'
  have h1s := start_rows_one wf idx e f'
  have h0w := window_rows_zero wf e f'
  have h1w := window_rows_one wf e f'
  unfold ScatterDims.resultIdx?
  split
  · rename_i h
    rw [Option.some.injEq]
    constructor
    · intro hg
      have e0 := congrArg (fun g => (g (0 : Fin 2)).val) hg
      have e1 := congrArg (fun g => (g (1 : Fin 2)).val) hg
      simp only [h0s, h1s, h0w, h1w] at e0 e1
      have hh := (h (0 : Fin 2)).1
      rw [h0s, h0w] at hh
      refine ⟨Fin.ext ?_, ?_⟩
      · change _ = f.val at e1
        omega
      · change _ = i.val at e0
        omega
    · rintro ⟨rfl, hz⟩
      funext a
      refine Fin.ext ?_
      match a with
      | ⟨0, _⟩ =>
        show ((rowScatterDims N M D wf).start (ix2 e f') idx (0 : Fin 2) + (rowScatterDims N M D wf).window (ix2 e f') (0 : Fin 2)).toNat = i.val
        rw [h0s, h0w, hz]; omega
      | ⟨1, _⟩ =>
        show ((rowScatterDims N M D wf).start (ix2 e f') idx (1 : Fin 2) + (rowScatterDims N M D wf).window (ix2 e f') (1 : Fin 2)).toNat = f'.val
        rw [h1s, h1w]; omega
  · rename_i h
    constructor
    · intro hg; exact absurd hg (by simp)
    · rintro ⟨rfl, hz⟩
      exfalso
      apply h
      intro a
      match a with
      | ⟨0, _⟩ =>
        show 0 ≤ (rowScatterDims N M D wf).start (ix2 e f') idx (0 : Fin 2) + (rowScatterDims N M D wf).window (ix2 e f') (0 : Fin 2)
          ∧ (rowScatterDims N M D wf).start (ix2 e f') idx (0 : Fin 2) + (rowScatterDims N M D wf).window (ix2 e f') (0 : Fin 2) < (N : ℤ)
        rw [h0s, h0w, hz]
        have := i.isLt
        omega
      | ⟨1, _⟩ =>
        show 0 ≤ (rowScatterDims N M D wf).start (ix2 e f') idx (1 : Fin 2) + (rowScatterDims N M D wf).window (ix2 e f') (1 : Fin 2)
          ∧ (rowScatterDims N M D wf).start (ix2 e f') idx (1 : Fin 2) + (rowScatterDims N M D wf).window (ix2 e f') (1 : Fin 2) < (D : ℤ)
        rw [h1s, h1w]
        have := f'.isLt
        omega

end Scatter

/-- THE ROW SCATTER-ADD READ AT `(i, f)`: the operand element plus, over all update rows `e`, the update element
    `(e, f)` when the signed start index of row `e` is `i` (a row whose start index is outside `[0, N)` matches no `i`
    and is dropped). -/
theorem hostScatterAdd_rows_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (i : Fin N) (f : Fin D) :
    Ideal.hostScatterAdd (rowScatterDims N M D wf) x idx upd (ix2 i f)
      = x (ix2 i f) + ∑ e : Fin M, if (idx (ix2 e (0 : Fin 1))).toInt = (i.val : ℤ) then upd (ix2 e f) else 0 := by
  unfold Ideal.hostScatterAdd
  congr 1
  rw [Finset.sum_filter, sum_idx2]
  refine Finset.sum_congr rfl fun e _ => ?_
  simp only [resultIdx?_rows_eq_some_iff wf idx e f]
  by_cases hz : (idx (ix2 e (0 : Fin 1))).toInt = (i.val : ℤ)
  · simp only [hz, and_true, if_true]
    rw [Finset.sum_ite_eq' Finset.univ f (fun f' => upd (ix2 e f'))]
    simp
  · simp only [hz, and_false, if_false]
    exact Finset.sum_const_zero

/-! ## Gather of rows -/

/-- The dimension numbers of a gather of ROWS: operand `[N, D]`, start indices `[M, 1]`, result `[M, D]`, each slice
    one whole row (`slice_sizes = [1, D]`) with its row axis collapsed. Their conditions `wf` are decided on a
    program's literal shapes. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

section Gather
variable {N M D w : Nat}
  (wf : GatherDims.WF ⟨2, ![N, D]⟩ ⟨2, ![M, 1]⟩ ⟨2, ![M, D]⟩ [1] [0] [] [0] [] 1 ![1, D])
  (idx : IVec ⟨2, ![M, 1]⟩ w) (e : Fin M) (f : Fin D)

/-- The row coordinate result element `(e, f)` reads: the start index `idx[e, 0]`, read signed and clamped into
    `[0, N − 1]` (the slice has one row); no batching and no offset on the collapsed row axis. -/
theorem gather_rows_coord_zero :
    (rowGatherDims N M D wf).start (ix2 e f) idx (0 : Fin 2) + (rowGatherDims N M D wf).batchCoord (ix2 e f) (0 : Fin 2)
      + (rowGatherDims N M D wf).offCoord (ix2 e f) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M D wf).startIndexMap from List.mem_singleton.mpr rfl)]
  have hsi : (rowGatherDims N M D wf).siIdx (ix2 e f) ⟨List.idxOf (0 : Fin 2) (rowGatherDims N M D wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The column coordinate result element `(e, f)` reads: the offset `f` (the start index does not name the column
    axis, so the slice starts at column `0`). -/
theorem gather_rows_coord_one :
    (rowGatherDims N M D wf).start (ix2 e f) idx (1 : Fin 2) + (rowGatherDims N M D wf).batchCoord (ix2 e f) (1 : Fin 2)
      + (rowGatherDims N M D wf).offCoord (ix2 e f) (1 : Fin 2) = f.val := by
  rw [GatherDims.batchCoord_eq_zero _ _ _ List.not_mem_nil]
  unfold GatherDims.start
  rw [dif_neg (show ¬ (1 : Fin 2) ∈ [(0 : Fin 2)] from by decide)]
  simp only [Nat.add_zero, Nat.zero_add]
  unfold GatherDims.offCoord
  rw [dif_pos ((GatherDims.mem_sKept (rowGatherDims N M D wf) (1 : Fin 2)).mpr
    ⟨show ¬ (1 : Fin 2) ∈ [(0 : Fin 2)] from by decide, List.not_mem_nil⟩)]
  rfl

end Gather

/-- THE ROW GATHER READ AT `(e, f)`: the operand at the row `idx[e, 0]`, read signed and clamped into `[0, N − 1]`,
    and column `f`. -/
theorem gather_rows_apply {α : Type} {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (f : Fin D) :
    Host.gather (rowGatherDims N M D wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact gather_rows_coord_zero wf idx e f
  | ⟨1, _⟩ => exact gather_rows_coord_one wf idx e f

/-! ## Edge rows followed by self-loop rows -/

/-- Scattering `M + N` rows, of which the last `N` carry the scatter indices `0 … N − 1` in order, is scattering the
    first `M` rows and then adding row `M + i` to node `i`: the sum over the `M + N` rows splits into the first `M` and
    the last `N`, and among the last `N` exactly row `M + i` lands on node `i`. -/
theorem hostScatterAdd_rows_concat_self {N M D : Nat}
    (wfK : ScatterDims.WF ⟨2, ![N, D]⟩ ⟨2, ![M + N, 1]⟩ ⟨2, ![M + N, D]⟩ [1] [0] [0] 1)
    (wfR : ScatterDims.WF ⟨2, ![N, D]⟩ ⟨2, ![M, 1]⟩ ⟨2, ![M, D]⟩ [1] [0] [0] 1)
    (x : (⟨2, ![N, D]⟩ : Shape).Idx → EReal)
    (idxK : IVec ⟨2, ![M + N, 1]⟩ 32) (updK : (⟨2, ![M + N, D]⟩ : Shape).Idx → EReal)
    (idxR : IVec ⟨2, ![M, 1]⟩ 32) (updR : (⟨2, ![M, D]⟩ : Shape).Idx → EReal)
    (hidx : ∀ e : Fin M, (idxK (ix2 (Fin.castAdd N e) (0 : Fin 1))).toInt = (idxR (ix2 e (0 : Fin 1))).toInt)
    (hupd : ∀ (e : Fin M) (f : Fin D), updK (ix2 (Fin.castAdd N e) f) = updR (ix2 e f))
    (hself : ∀ t : Fin N, (idxK (ix2 (Fin.natAdd M t) (0 : Fin 1))).toInt = (t.val : ℤ))
    (i : Fin N) (f : Fin D) :
    Ideal.hostScatterAdd (rowScatterDims N (M + N) D wfK) x idxK updK (ix2 i f)
      = Ideal.hostScatterAdd (rowScatterDims N M D wfR) x idxR updR (ix2 i f) + updK (ix2 (Fin.natAdd M i) f) := by
  rw [hostScatterAdd_rows_apply, hostScatterAdd_rows_apply, Fin.sum_univ_add, add_assoc]
  congr 2
  · refine Finset.sum_congr rfl fun e _ => ?_
    rw [hidx e, hupd e f]
  · have hrow : ∀ t : Fin N,
        (if (idxK (ix2 (Fin.natAdd M t) (0 : Fin 1))).toInt = (i.val : ℤ) then updK (ix2 (Fin.natAdd M t) f) else 0)
          = if t = i then updK (ix2 (Fin.natAdd M t) f) else 0 := by
      intro t
      rw [hself t]
      have hti : ((t.val : ℤ) = (i.val : ℤ)) ↔ t = i := by
        rw [Nat.cast_inj]; exact Fin.val_inj
      simp only [hti]
    rw [Finset.sum_congr rfl (fun t _ => hrow t), Finset.sum_ite_eq' Finset.univ i]
    simp

/-! ## 32-bit index words -/

/-- A natural below `2^31` written as a 32-bit word reads back, signed, as itself. -/
theorem toInt_ofNat32 (t : Nat) (h : t < 2147483648) : (BitVec.ofNat 32 t).toInt = (t : ℤ) := by
  rw [BitVec.toInt_eq_toNat_cond, BitVec.toNat_ofNat]
  have hm : t % 2 ^ 32 = t := Nat.mod_eq_of_lt (by omega)
  rw [hm, if_pos (by omega)]

/-- The word of a natural below `2^31` is not below zero as a signed integer: the comparison's bit is `0`. -/
theorem cmpi_slt_zero_ofNat32 (t : Nat) (h : t < 2147483648) : IntOp.cmpi .slt (BitVec.ofNat 32 t) 0#32 = 0#1 := by
  have hlt : (BitVec.ofNat 32 t).slt 0#32 = false := by
    rw [BitVec.slt, toInt_ofNat32 t h]
    simp
  show BitVec.ofBool ((BitVec.ofNat 32 t).slt 0#32) = 0#1
  rw [hlt]; rfl

/-- The negative-index wrap `select (w <ₛ 0) (w + n) w` leaves the word of a natural `t < 2^31` unchanged. -/
theorem wrap_ofNat32 (t n : Nat) (h : t < 2147483648) :
    Scalar.select (IntOp.cmpi .slt (BitVec.ofNat 32 t) 0#32) (IntOp.addi (BitVec.ofNat 32 t) (BitVec.ofNat 32 n))
      (BitVec.ofNat 32 t) = BitVec.ofNat 32 t := by
  rw [cmpi_slt_zero_ofNat32 t h, select_zero]

/-- The same wrap on a vector of index words, read at an index `i` where the word is that of a natural `t < 2^31` and
    the compared vector reads `0`: the element is unchanged (whatever vector `nn` is added in the other branch). -/
theorem wrap_apply_ofNat32 {S : Shape} (a z nn : IVec S 32) (i : S.Idx) (t : Nat) (h : t < 2147483648)
    (ha : a i = BitVec.ofNat 32 t) (hz : z i = 0#32) :
    (select (cmpi .slt a z) (addi a nn) a) i = a i := by
  show Scalar.select (IntOp.cmpi .slt (a i) (z i)) (IntOp.addi (a i) (nn i)) (a i) = a i
  rw [hz, ha, cmpi_slt_zero_ofNat32 t h, select_zero]
end Cert.Lib.RowsScatterGather

end
-- ==== Proof.AggBridge.lean ====
/-
  THE TWO PROGRAMS' NEIGHBOURHOOD AGGREGATIONS AGREE (at the ideal instance, over the extended reals).

  The kernel's program extends the list of 1600000 edges by one self-loop row per node (50000 rows: source and
  destination the node itself, weight the node's self-loop weight) and makes ONE accumulating scatter over the
  1650000 rows; the reference scatters the 1600000 edge rows and then adds each node's own feature row times its
  self-loop weight. Read at node `n`, column `f`:
    • on an edge row both programs scatter the same update (the feature row of the edge's wrapped, clamped source,
      times the edge's weight) to the same node (the edge's destination word);
    • the self-loop row of node `t` carries the scatter index `t`, so among the self-loop rows exactly row `n` lands
      on node `n`, and its update is the node's own feature row (its source word `n` is not negative, so it is not
      wrapped, and `n ≤ 49999` is not clamped) times its self-loop weight: the reference's self-loop term.
  So the kernel's sum over 1650000 rows is the reference's sum over 1600000 rows plus the self-loop term
  (`hostScatterAdd_rows_concat_self`), for the 128-column and the 10-column feature arrays alike
  (`agg128_eq`, `agg10_eq`).
-/
import proofs.«128580_j23347442221163_2_alg».proof.Proof.AggDefs
import proofs.«128580_j23347442221163_2_alg».proof.Proof.LibRowsScatterGather
import Idealize.ShloMosaic.Lib.Pipeline.Value
import Idealize.ShloMosaic.Lib.ValueIdx
import Idealize.ShloMosaic.Lib.ValueLayout
import Idealize.ShloMosaic.Lib.IdealHost

noncomputable section

open scoped BigOperators
open Idealize.ShloMosaic Idealize.ShloMosaic.ValueIdx Cert.Lib.RowsScatterGather

namespace Cert.Agg

/-! ## Broadcasts and concatenations read at an index -/

section General
variable {α : Type}

/-- A vector `[n]` broadcast to a column `[n, 1]` reads the vector at the row. -/
theorem bcast_col_apply {n : Nat} (h : (⟨1, ![n]⟩ : Shape).BroadcastsInDim ⟨2, ![n, 1]⟩ (![0] : Fin 1 → Fin 2))
    (x : (⟨1, ![n]⟩ : Shape).Idx → α) (e : Fin n) (c : Fin 1) :
    broadcastInDim ⟨2, ![n, 1]⟩ (![0] : Fin 1 → Fin 2) h x (ix2 e c) = x (ix1 e) := by
  refine broadcastInDim_apply _ h x _ (ix1 e) fun a => ?_
  match a with
  | ⟨0, _⟩ =>
    show e.val = if n = 1 then 0 else e.val
    split
    · omega
    · rfl

/-- A column `[n, 1]` broadcast along the rows of `[n, d]` reads the column at the row. -/
theorem bcast_row_apply {n d : Nat} (h : (⟨2, ![n, 1]⟩ : Shape).BroadcastsInDim ⟨2, ![n, d]⟩ (![0, 1] : Fin 2 → Fin 2))
    (x : (⟨2, ![n, 1]⟩ : Shape).Idx → α) (e : Fin n) (f : Fin d) :
    broadcastInDim ⟨2, ![n, d]⟩ (![0, 1] : Fin 2 → Fin 2) h x (ix2 e f) = x (ix2 e (0 : Fin 1)) := by
  refine broadcastInDim_apply _ h x _ (ix2 e (0 : Fin 1)) fun a => ?_
  match a with
  | ⟨0, _⟩ =>
    show e.val = if n = 1 then 0 else e.val
    split
    · omega
    · rfl
  | ⟨1, _⟩ => rfl

/-- A concatenation of two vectors read in the first part. -/
theorem concat1_left {n1 n2 n : Nat} (h : Shape.Concatenates [⟨1, ![n1]⟩, ⟨1, ![n2]⟩] ⟨1, ![n]⟩ (0 : Fin 1))
    (x1 : (⟨1, ![n1]⟩ : Shape).Idx → α) (x2 : (⟨1, ![n2]⟩ : Shape).Idx → α) (e : Fin n1) (he : e.val < n) :
    concatenate ⟨1, ![n]⟩ (0 : Fin 1) [⟨⟨1, ![n1]⟩, x1⟩, ⟨⟨1, ![n2]⟩, x2⟩] h (ix1 ⟨e.val, he⟩) = x1 (ix1 e) := by
  refine concatenate_pair_apply_left (t := ⟨1, ![n]⟩) (0 : Fin 1) x1 x2 h _ rfl (ix1 e) fun b => ?_
  match b with
  | ⟨0, _⟩ => rfl

/-- A concatenation of two vectors read in the second part. -/
theorem concat1_right {n1 n2 n : Nat} (h : Shape.Concatenates [⟨1, ![n1]⟩, ⟨1, ![n2]⟩] ⟨1, ![n]⟩ (0 : Fin 1))
    (x1 : (⟨1, ![n1]⟩ : Shape).Idx → α) (x2 : (⟨1, ![n2]⟩ : Shape).Idx → α) (t : Fin n2) (ht : n1 + t.val < n) :
    concatenate ⟨1, ![n]⟩ (0 : Fin 1) [⟨⟨1, ![n1]⟩, x1⟩, ⟨⟨1, ![n2]⟩, x2⟩] h (ix1 ⟨n1 + t.val, ht⟩) = x2 (ix1 t) := by
  refine concatenate_pair_apply_right (t := ⟨1, ![n]⟩) (0 : Fin 1) x1 x2 h _ rfl rfl (ix1 t) (fun b hb => ?_) ?_
  · match b with
    | ⟨0, _⟩ => exact absurd rfl hb
  · show t.val + n1 = n1 + t.val
    omega

end General

/-- At the ideal instance the host's accumulating scatter is the exact sum `Ideal.hostScatterAdd`. -/
theorem hostScatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-! ## The index and weight lists at a row -/

namespace K
open Cert.KernelIdeal Cert.KernelIdeal.Facts₀

/-- An edge row of the extended word list reads the edge's word. -/
theorem fullIdx_edge (a : IVec S1600000 32) (e : Fin 1600000) :
    fullIdx a (ix1 (Fin.castAdd 50000 e)) = a (ix1 e) :=
  concat1_left concatenates_S1600000_S50000_S1650000_d0 a (iotaInDim S50000 32 0) e (by have := e.isLt; omega)

/-- A self-loop row of the extended word list reads the node's number as a word. -/
theorem fullIdx_self (a : IVec S1600000 32) (t : Fin 50000) :
    fullIdx a (ix1 (Fin.natAdd 1600000 t)) = BitVec.ofNat 32 t.val :=
  concat1_right concatenates_S1600000_S50000_S1650000_d0 a (iotaInDim S50000 32 0) t (by have := t.isLt; omega)

/-- An edge row of the extended weight list reads the edge's weight. -/
theorem fullNorm_edge (nrm : FVec Ideal S1600000 .f32) (slf : FVec Ideal S50000 .f32) (e : Fin 1600000) :
    fullNorm nrm slf (ix1 (Fin.castAdd 50000 e)) = nrm (ix1 e) :=
  concat1_left concatenates_S1600000_S50000_S1650000_d0 nrm slf e (by have := e.isLt; omega)

/-- A self-loop row of the extended weight list reads the node's self-loop weight. -/
theorem fullNorm_self (nrm : FVec Ideal S1600000 .f32) (slf : FVec Ideal S50000 .f32) (t : Fin 50000) :
    fullNorm nrm slf (ix1 (Fin.natAdd 1600000 t)) = slf (ix1 t) :=
  concat1_right concatenates_S1600000_S50000_S1650000_d0 nrm slf t (by have := t.isLt; omega)

/-- The wrapped source word of a self-loop row is the node's number: it is not negative, so nothing is added. -/
theorem wrapIdx_self (a : IVec S1600000 32) (t : Fin 50000) :
    wrapIdx (fullIdx a) (ix1 (Fin.natAdd 1600000 t)) = BitVec.ofNat 32 t.val :=
  (wrap_apply_ofNat32 (fullIdx a) _ _ (ix1 (Fin.natAdd 1600000 t)) t.val (by have := t.isLt; omega)
    (fullIdx_self a t) rfl).trans (fullIdx_self a t)

end K

/-- The wrapped source word of an edge row is the same in the two programs. -/
theorem wrapIdx_edge (a : IVec Cert.KernelIdeal.S1600000 32) (e : Fin 1600000) :
    K.wrapIdx (K.fullIdx a) (ix1 (Fin.castAdd 50000 e)) = R.wrapIdx a (ix1 e) := by
  show Scalar.select (IntOp.cmpi .slt (K.fullIdx a (ix1 (Fin.castAdd 50000 e))) 0#32)
      (IntOp.addi (K.fullIdx a (ix1 (Fin.castAdd 50000 e))) 50000#32) (K.fullIdx a (ix1 (Fin.castAdd 50000 e)))
    = Scalar.select (IntOp.cmpi .slt (a (ix1 e)) 0#32) (IntOp.addi (a (ix1 e)) 50000#32) (a (ix1 e))
  rw [K.fullIdx_edge]

/-! ## The 128-column aggregation -/

section Agg128
variable (src dst : IVec Cert.KernelIdeal.S1600000 32) (nrm : FVec Ideal Cert.KernelIdeal.S1600000 .f32)
  (slf : FVec Ideal Cert.KernelIdeal.S50000 .f32) (xw : FVec Ideal Cert.KernelIdeal.S50000x128 .f32)

/-- The array both scatters start from: zero everywhere. -/
abbrev zero128 : FVec Ideal Cert.KernelIdeal.S50000x128 .f32 :=
  broadcastInDim Cert.KernelIdeal.S50000x128 ![] Cert.KernelIdeal.Facts₀.bcast_S_S50000x128 (constant (F := Ideal) Cert.KernelIdeal.S_ .f32 0x00000000#32)

/-- The kernel's scatter indices: the extended destination list as a column. -/
abbrev idxK128 : IVec Cert.KernelIdeal.S1650000x1 32 :=
  broadcastInDim Cert.KernelIdeal.S1650000x1 ![0] Cert.KernelIdeal.Facts₀.bcast_S1650000_S1650000x1_0 (K.fullIdx dst)

/-- The kernel's updates: row `r` is the feature row of the row's wrapped, clamped source, times the row's weight. -/
abbrev updK128 : FVec Ideal Cert.KernelIdeal.S1650000x128 .f32 :=
  mulf (F := Ideal)
    (extf (F := Ideal) .f32 (Host.gather Cert.KernelIdeal.gather_S50000x128_S1650000x1_S1650000x128_1_0_n_n_0_1_1128
        (truncf (F := Ideal) .bf16 xw Cert.KernelIdeal.Facts₀.bitsLt_bf16_f32)
        (broadcastInDim Cert.KernelIdeal.S1650000x1 ![0] Cert.KernelIdeal.Facts₀.bcast_S1650000_S1650000x1_0 (K.wrapIdx (K.fullIdx src)))) Cert.KernelIdeal.Facts₀.bitsLt_bf16_f32)
    (broadcastInDim Cert.KernelIdeal.S1650000x128 ![0, 1] Cert.KernelIdeal.Facts₀.bcast_S1650000x1_S1650000x128_0_1
      (broadcastInDim Cert.KernelIdeal.S1650000x1 ![0] Cert.KernelIdeal.Facts₀.bcast_S1650000_S1650000x1_0 (K.fullNorm nrm slf)))

/-- The reference's scatter indices: the destination list as a column. -/
abbrev idxR128 : IVec Cert.ReferenceIdeal.S1600000x1 32 :=
  broadcastInDim Cert.ReferenceIdeal.S1600000x1 ![0] Cert.ReferenceIdeal.Facts₀.bcast_S1600000_S1600000x1_0 dst

/-- The reference's updates: row `e` is the feature row of the edge's wrapped, clamped source, times the edge's weight. -/
abbrev updR128 : FVec Ideal Cert.ReferenceIdeal.S1600000x128 .f32 :=
  mulf (F := Ideal)
    (Host.gather Cert.ReferenceIdeal.gather_S50000x128_S1600000x1_S1600000x128_1_0_n_n_0_1_1128 xw
      (broadcastInDim Cert.ReferenceIdeal.S1600000x1 ![0] Cert.ReferenceIdeal.Facts₀.bcast_S1600000_S1600000x1_0 (R.wrapIdx src)))
    (broadcastInDim Cert.ReferenceIdeal.S1600000x128 ![0, 1] Cert.ReferenceIdeal.Facts₀.bcast_S1600000x1_S1600000x128_0_1
      (broadcastInDim Cert.ReferenceIdeal.S1600000x1 ![0] Cert.ReferenceIdeal.Facts₀.bcast_S1600000_S1600000x1_0 nrm))

/-- The reference's self-loop term: each node's own feature row times its self-loop weight. -/
abbrev selfR128 : FVec Ideal Cert.ReferenceIdeal.S50000x128 .f32 :=
  mulf (F := Ideal) xw
    (broadcastInDim Cert.ReferenceIdeal.S50000x128 ![0, 1] Cert.ReferenceIdeal.Facts₀.bcast_S50000x1_S50000x128_0_1
      (broadcastInDim Cert.ReferenceIdeal.S50000x1 ![0] Cert.ReferenceIdeal.Facts₀.bcast_S50000_S50000x1_0 slf))

/-- The kernel's update row `r`, column `f`: the feature array at the row's wrapped source word `z`, read signed and
    clamped into `[0, 49999]`, times the row's weight `wt`. -/
theorem updK128_row (r : Fin 1650000) (f : Fin 128) (z : BitVec 32) (hz : K.wrapIdx (K.fullIdx src) (ix1 r) = z)
    (wt : EReal) (hw : K.fullNorm nrm slf (ix1 r) = wt) :
    updK128 src nrm slf xw (ix2 r f) = xw (ix2 ⟨min z.toInt.toNat (50000 - 1), by omega⟩ f) * wt := by
  subst hz hw
  show Host.gather (rowGatherDims 50000 1650000 128 Cert.KernelIdeal.Facts₀.gather_S50000x128_S1650000x1_S1650000x128_1_0_n_n_0_1_1128_wf) xw
        (broadcastInDim ⟨2, ![1650000, 1]⟩ (![0] : Fin 1 → Fin 2) Cert.KernelIdeal.Facts₀.bcast_S1650000_S1650000x1_0 (K.wrapIdx (K.fullIdx src))) (ix2 r f)
      * broadcastInDim ⟨2, ![1650000, 128]⟩ (![0, 1] : Fin 2 → Fin 2) Cert.KernelIdeal.Facts₀.bcast_S1650000x1_S1650000x128_0_1
          (broadcastInDim ⟨2, ![1650000, 1]⟩ (![0] : Fin 1 → Fin 2) Cert.KernelIdeal.Facts₀.bcast_S1650000_S1650000x1_0 (K.fullNorm nrm slf)) (ix2 r f) = _
  rw [gather_rows_apply (by decide), bcast_row_apply]
  refine congrArg₂ (· * ·) ?_ ?_
  · refine congrArg (fun q => xw (ix2 q f)) (Fin.ext ?_)
    show min (broadcastInDim ⟨2, ![1650000, 1]⟩ (![0] : Fin 1 → Fin 2) Cert.KernelIdeal.Facts₀.bcast_S1650000_S1650000x1_0
      (K.wrapIdx (K.fullIdx src)) (ix2 r (0 : Fin 1))).toInt.toNat (50000 - 1) = _
    rw [bcast_col_apply]
  · exact bcast_col_apply _ _ r 0

/-- The reference's update row `e`, column `f`: the feature array at the edge's wrapped source word, read signed and
    clamped into `[0, 49999]`, times the edge's weight. -/
theorem updR128_row (e : Fin 1600000) (f : Fin 128) :
    updR128 src nrm xw (ix2 e f)
      = xw (ix2 ⟨min (R.wrapIdx src (ix1 e)).toInt.toNat (50000 - 1), by omega⟩ f) * nrm (ix1 e) := by
  show Host.gather (rowGatherDims 50000 1600000 128 Cert.ReferenceIdeal.Facts₀.gather_S50000x128_S1600000x1_S1600000x128_1_0_n_n_0_1_1128_wf) xw
        (broadcastInDim ⟨2, ![1600000, 1]⟩ (![0] : Fin 1 → Fin 2) Cert.ReferenceIdeal.Facts₀.bcast_S1600000_S1600000x1_0 (R.wrapIdx src)) (ix2 e f)
      * broadcastInDim ⟨2, ![1600000, 128]⟩ (![0, 1] : Fin 2 → Fin 2) Cert.ReferenceIdeal.Facts₀.bcast_S1600000x1_S1600000x128_0_1
          (broadcastInDim ⟨2, ![1600000, 1]⟩ (![0] : Fin 1 → Fin 2) Cert.ReferenceIdeal.Facts₀.bcast_S1600000_S1600000x1_0 nrm) (ix2 e f) = _
  rw [gather_rows_apply (by decide), bcast_row_apply]
  refine congrArg₂ (· * ·) ?_ ?_
  · refine congrArg (fun q => xw (ix2 q f)) (Fin.ext ?_)
    show min (broadcastInDim ⟨2, ![1600000, 1]⟩ (![0] : Fin 1 → Fin 2) Cert.ReferenceIdeal.Facts₀.bcast_S1600000_S1600000x1_0
      (R.wrapIdx src) (ix2 e (0 : Fin 1))).toInt.toNat (50000 - 1) = _
    rw [bcast_col_apply]
  · exact bcast_col_apply _ _ e 0

/-- On an edge row the two programs' updates agree. -/
theorem upd128_edge (e : Fin 1600000) (f : Fin 128) :
    updK128 src nrm slf xw (ix2 (Fin.castAdd 50000 e) f) = updR128 src nrm xw (ix2 e f) :=
  (updK128_row src nrm slf xw (Fin.castAdd 50000 e) f (R.wrapIdx src (ix1 e)) (wrapIdx_edge src e) (nrm (ix1 e))
    (K.fullNorm_edge nrm slf e)).trans (updR128_row src nrm xw e f).symm

/-- On the self-loop row of node `n` the kernel's update is the reference's self-loop term at `n`. -/
theorem upd128_self (n : Fin 50000) (f : Fin 128) :
    updK128 src nrm slf xw (ix2 (Fin.natAdd 1600000 n) f) = selfR128 slf xw (ix2 n f) := by
  refine (updK128_row src nrm slf xw (Fin.natAdd 1600000 n) f (BitVec.ofNat 32 n.val) (K.wrapIdx_self src n) (slf (ix1 n))
    (K.fullNorm_self nrm slf n)).trans ?_
  show _ = xw (ix2 n f) * broadcastInDim ⟨2, ![50000, 128]⟩ (![0, 1] : Fin 2 → Fin 2) Cert.ReferenceIdeal.Facts₀.bcast_S50000x1_S50000x128_0_1
      (broadcastInDim ⟨2, ![50000, 1]⟩ (![0] : Fin 1 → Fin 2) Cert.ReferenceIdeal.Facts₀.bcast_S50000_S50000x1_0 slf) (ix2 n f)
  rw [bcast_row_apply, bcast_col_apply]
  refine congrArg₂ (· * ·) ?_ rfl
  refine congrArg (fun q => xw (ix2 q f)) (Fin.ext ?_)
  show min (BitVec.ofNat 32 n.val).toInt.toNat (50000 - 1) = n.val
  rw [toInt_ofNat32 n.val (by have := n.isLt; omega)]
  have := n.isLt
  omega

/-- An edge row's scatter index is the edge's destination word in both programs. -/
theorem idx128_edge (e : Fin 1600000) :
    (idxK128 dst (ix2 (Fin.castAdd 50000 e) (0 : Fin 1))).toInt = (idxR128 dst (ix2 e (0 : Fin 1))).toInt := by
  have hK : idxK128 dst (ix2 (Fin.castAdd 50000 e) (0 : Fin 1)) = dst (ix1 e) :=
    (bcast_col_apply Cert.KernelIdeal.Facts₀.bcast_S1650000_S1650000x1_0 (K.fullIdx dst) (Fin.castAdd 50000 e) 0).trans (K.fullIdx_edge dst e)
  have hR : idxR128 dst (ix2 e (0 : Fin 1)) = dst (ix1 e) :=
    bcast_col_apply Cert.ReferenceIdeal.Facts₀.bcast_S1600000_S1600000x1_0 dst e 0
  rw [hK, hR]

/-- A self-loop row's scatter index is the node's number. -/
theorem idx128_self (t : Fin 50000) :
    (idxK128 dst (ix2 (Fin.natAdd 1600000 t) (0 : Fin 1))).toInt = (t.val : ℤ) := by
  have hK : idxK128 dst (ix2 (Fin.natAdd 1600000 t) (0 : Fin 1)) = BitVec.ofNat 32 t.val :=
    (bcast_col_apply Cert.KernelIdeal.Facts₀.bcast_S1650000_S1650000x1_0 (K.fullIdx dst) (Fin.natAdd 1600000 t) 0).trans (K.fullIdx_self dst t)
  rw [hK, toInt_ofNat32 t.val (by have := t.isLt; omega)]

/-- The kernel's scatter record is the general row-scatter record. -/
theorem scatterK128_eq : Cert.KernelIdeal.scatter_S50000x128_S1650000x1_S1650000x128_1_0_0_1
    = rowScatterDims 50000 (1600000 + 50000) 128 Cert.KernelIdeal.Facts₀.scatter_S50000x128_S1650000x1_S1650000x128_1_0_0_1_wf := rfl

/-- The reference's scatter record is the general row-scatter record. -/
theorem scatterR128_eq : Cert.ReferenceIdeal.scatter_S50000x128_S1600000x1_S1600000x128_1_0_0_1
    = rowScatterDims 50000 1600000 128 Cert.ReferenceIdeal.Facts₀.scatter_S50000x128_S1600000x1_S1600000x128_1_0_0_1_wf := rfl

/-- The kernel's aggregation is its one scatter, over the general row-scatter record. -/
theorem aggK128_read (n : Fin 50000) (f : Fin 128) :
    K.aggK128 src dst nrm slf xw (ix2 n f)
      = Ideal.hostScatterAdd (rowScatterDims 50000 (1600000 + 50000) 128 Cert.KernelIdeal.Facts₀.scatter_S50000x128_S1650000x1_S1650000x128_1_0_0_1_wf) zero128 (idxK128 dst)
          (updK128 src nrm slf xw) (ix2 n f) := by
  unfold K.aggK128
  rw [hostScatterAdd_ideal, scatterK128_eq]

/-- The reference's aggregation is its scatter over the edges, over the general row-scatter record, plus the self-loop term. -/
theorem aggR128_read (n : Fin 50000) (f : Fin 128) :
    R.aggR128 src dst nrm slf xw (ix2 n f)
      = Ideal.hostScatterAdd (rowScatterDims 50000 1600000 128 Cert.ReferenceIdeal.Facts₀.scatter_S50000x128_S1600000x1_S1600000x128_1_0_0_1_wf) zero128 (idxR128 dst)
          (updR128 src nrm xw) (ix2 n f) + selfR128 slf xw (ix2 n f) := by
  unfold R.aggR128
  rw [addf_apply, hostScatterAdd_ideal, scatterR128_eq]

/-- THE TWO AGGREGATIONS AGREE (128 columns): the kernel's one scatter over the edges and the self-loop rows is the
    reference's scatter over the edges plus its self-loop term. -/
theorem agg128_eq : K.aggK128 src dst nrm slf xw = R.aggR128 src dst nrm slf xw := by
  funext j
  obtain ⟨n, f, rfl⟩ : ∃ n f, j = ix2 n f := ⟨j 0, j 1, eq_ix2 j⟩
  refine (aggK128_read src dst nrm slf xw n f).trans ?_
  refine Eq.trans ?_ (aggR128_read src dst nrm slf xw n f).symm
  refine (hostScatterAdd_rows_concat_self (N := 50000) (M := 1600000) (D := 128) Cert.KernelIdeal.Facts₀.scatter_S50000x128_S1650000x1_S1650000x128_1_0_0_1_wf Cert.ReferenceIdeal.Facts₀.scatter_S50000x128_S1600000x1_S1600000x128_1_0_0_1_wf
      (zero128) (idxK128 dst) (updK128 src nrm slf xw) (idxR128 dst) (updR128 src nrm xw)
      (idx128_edge dst) (upd128_edge src nrm slf xw) (idx128_self dst) n f).trans ?_
  exact congrArg (fun y => Ideal.hostScatterAdd (rowScatterDims 50000 1600000 128 Cert.ReferenceIdeal.Facts₀.scatter_S50000x128_S1600000x1_S1600000x128_1_0_0_1_wf) (zero128) (idxR128 dst)
    (updR128 src nrm xw) (ix2 n f) + y) (upd128_self src nrm slf xw n f)

end Agg128

/-! ## The 10-column aggregation -/

section Agg10
variable (src dst : IVec Cert.KernelIdeal.S1600000 32) (nrm : FVec Ideal Cert.KernelIdeal.S1600000 .f32)
  (slf : FVec Ideal Cert.KernelIdeal.S50000 .f32) (xw : FVec Ideal Cert.KernelIdeal.S50000x10 .f32)

/-- The array both scatters start from: zero everywhere. -/
abbrev zero10 : FVec Ideal Cert.KernelIdeal.S50000x10 .f32 :=
  broadcastInDim Cert.KernelIdeal.S50000x10 ![] Cert.KernelIdeal.Facts₀.bcast_S_S50000x10 (constant (F := Ideal) Cert.KernelIdeal.S_ .f32 0x00000000#32)

/-- The kernel's scatter indices: the extended destination list as a column. -/
abbrev idxK10 : IVec Cert.KernelIdeal.S1650000x1 32 :=
  broadcastInDim Cert.KernelIdeal.S1650000x1 ![0] Cert.KernelIdeal.Facts₀.bcast_S1650000_S1650000x1_0 (K.fullIdx dst)

/-- The kernel's updates: row `r` is the feature row of the row's wrapped, clamped source, times the row's weight. -/
abbrev updK10 : FVec Ideal Cert.KernelIdeal.S1650000x10 .f32 :=
  mulf (F := Ideal)
    (extf (F := Ideal) .f32 (Host.gather Cert.KernelIdeal.gather_S50000x10_S1650000x1_S1650000x10_1_0_n_n_0_1_110
        (truncf (F := Ideal) .bf16 xw Cert.KernelIdeal.Facts₀.bitsLt_bf16_f32)
        (broadcastInDim Cert.KernelIdeal.S1650000x1 ![0] Cert.KernelIdeal.Facts₀.bcast_S1650000_S1650000x1_0 (K.wrapIdx (K.fullIdx src)))) Cert.KernelIdeal.Facts₀.bitsLt_bf16_f32)
    (broadcastInDim Cert.KernelIdeal.S1650000x10 ![0, 1] Cert.KernelIdeal.Facts₀.bcast_S1650000x1_S1650000x10_0_1
      (broadcastInDim Cert.KernelIdeal.S1650000x1 ![0] Cert.KernelIdeal.Facts₀.bcast_S1650000_S1650000x1_0 (K.fullNorm nrm slf)))

/-- The reference's scatter indices: the destination list as a column. -/
abbrev idxR10 : IVec Cert.ReferenceIdeal.S1600000x1 32 :=
  broadcastInDim Cert.ReferenceIdeal.S1600000x1 ![0] Cert.ReferenceIdeal.Facts₀.bcast_S1600000_S1600000x1_0 dst

/-- The reference's updates: row `e` is the feature row of the edge's wrapped, clamped source, times the edge's weight. -/
abbrev updR10 : FVec Ideal Cert.ReferenceIdeal.S1600000x10 .f32 :=
  mulf (F := Ideal)
    (Host.gather Cert.ReferenceIdeal.gather_S50000x10_S1600000x1_S1600000x10_1_0_n_n_0_1_110 xw
      (broadcastInDim Cert.ReferenceIdeal.S1600000x1 ![0] Cert.ReferenceIdeal.Facts₀.bcast_S1600000_S1600000x1_0 (R.wrapIdx src)))
    (broadcastInDim Cert.ReferenceIdeal.S1600000x10 ![0, 1] Cert.ReferenceIdeal.Facts₀.bcast_S1600000x1_S1600000x10_0_1
      (broadcastInDim Cert.ReferenceIdeal.S1600000x1 ![0] Cert.ReferenceIdeal.Facts₀.bcast_S1600000_S1600000x1_0 nrm))

/-- The reference's self-loop term: each node's own feature row times its self-loop weight. -/
abbrev selfR10 : FVec Ideal Cert.ReferenceIdeal.S50000x10 .f32 :=
  mulf (F := Ideal) xw
    (broadcastInDim Cert.ReferenceIdeal.S50000x10 ![0, 1] Cert.ReferenceIdeal.Facts₀.bcast_S50000x1_S50000x10_0_1
      (broadcastInDim Cert.ReferenceIdeal.S50000x1 ![0] Cert.ReferenceIdeal.Facts₀.bcast_S50000_S50000x1_0 slf))

/-- The kernel's update row `r`, column `f`: the feature array at the row's wrapped source word `z`, read signed and
    clamped into `[0, 49999]`, times the row's weight `wt`. -/
theorem updK10_row (r : Fin 1650000) (f : Fin 10) (z : BitVec 32) (hz : K.wrapIdx (K.fullIdx src) (ix1 r) = z)
    (wt : EReal) (hw : K.fullNorm nrm slf (ix1 r) = wt) :
    updK10 src nrm slf xw (ix2 r f) = xw (ix2 ⟨min z.toInt.toNat (50000 - 1), by omega⟩ f) * wt := by
  subst hz hw
  show Host.gather (rowGatherDims 50000 1650000 10 Cert.KernelIdeal.Facts₀.gather_S50000x10_S1650000x1_S1650000x10_1_0_n_n_0_1_110_wf) xw
        (broadcastInDim ⟨2, ![1650000, 1]⟩ (![0] : Fin 1 → Fin 2) Cert.KernelIdeal.Facts₀.bcast_S1650000_S1650000x1_0 (K.wrapIdx (K.fullIdx src))) (ix2 r f)
      * broadcastInDim ⟨2, ![1650000, 10]⟩ (![0, 1] : Fin 2 → Fin 2) Cert.KernelIdeal.Facts₀.bcast_S1650000x1_S1650000x10_0_1
          (broadcastInDim ⟨2, ![1650000, 1]⟩ (![0] : Fin 1 → Fin 2) Cert.KernelIdeal.Facts₀.bcast_S1650000_S1650000x1_0 (K.fullNorm nrm slf)) (ix2 r f) = _
  rw [gather_rows_apply (by decide), bcast_row_apply]
  refine congrArg₂ (· * ·) ?_ ?_
  · refine congrArg (fun q => xw (ix2 q f)) (Fin.ext ?_)
    show min (broadcastInDim ⟨2, ![1650000, 1]⟩ (![0] : Fin 1 → Fin 2) Cert.KernelIdeal.Facts₀.bcast_S1650000_S1650000x1_0
      (K.wrapIdx (K.fullIdx src)) (ix2 r (0 : Fin 1))).toInt.toNat (50000 - 1) = _
    rw [bcast_col_apply]
  · exact bcast_col_apply _ _ r 0

/-- The reference's update row `e`, column `f`: the feature array at the edge's wrapped source word, read signed and
    clamped into `[0, 49999]`, times the edge's weight. -/
theorem updR10_row (e : Fin 1600000) (f : Fin 10) :
    updR10 src nrm xw (ix2 e f)
      = xw (ix2 ⟨min (R.wrapIdx src (ix1 e)).toInt.toNat (50000 - 1), by omega⟩ f) * nrm (ix1 e) := by
  show Host.gather (rowGatherDims 50000 1600000 10 Cert.ReferenceIdeal.Facts₀.gather_S50000x10_S1600000x1_S1600000x10_1_0_n_n_0_1_110_wf) xw
        (broadcastInDim ⟨2, ![1600000, 1]⟩ (![0] : Fin 1 → Fin 2) Cert.ReferenceIdeal.Facts₀.bcast_S1600000_S1600000x1_0 (R.wrapIdx src)) (ix2 e f)
      * broadcastInDim ⟨2, ![1600000, 10]⟩ (![0, 1] : Fin 2 → Fin 2) Cert.ReferenceIdeal.Facts₀.bcast_S1600000x1_S1600000x10_0_1
          (broadcastInDim ⟨2, ![1600000, 1]⟩ (![0] : Fin 1 → Fin 2) Cert.ReferenceIdeal.Facts₀.bcast_S1600000_S1600000x1_0 nrm) (ix2 e f) = _
  rw [gather_rows_apply (by decide), bcast_row_apply]
  refine congrArg₂ (· * ·) ?_ ?_
  · refine congrArg (fun q => xw (ix2 q f)) (Fin.ext ?_)
    show min (broadcastInDim ⟨2, ![1600000, 1]⟩ (![0] : Fin 1 → Fin 2) Cert.ReferenceIdeal.Facts₀.bcast_S1600000_S1600000x1_0
      (R.wrapIdx src) (ix2 e (0 : Fin 1))).toInt.toNat (50000 - 1) = _
    rw [bcast_col_apply]
  · exact bcast_col_apply _ _ e 0

/-- On an edge row the two programs' updates agree. -/
theorem upd10_edge (e : Fin 1600000) (f : Fin 10) :
    updK10 src nrm slf xw (ix2 (Fin.castAdd 50000 e) f) = updR10 src nrm xw (ix2 e f) :=
  (updK10_row src nrm slf xw (Fin.castAdd 50000 e) f (R.wrapIdx src (ix1 e)) (wrapIdx_edge src e) (nrm (ix1 e))
    (K.fullNorm_edge nrm slf e)).trans (updR10_row src nrm xw e f).symm

/-- On the self-loop row of node `n` the kernel's update is the reference's self-loop term at `n`. -/
theorem upd10_self (n : Fin 50000) (f : Fin 10) :
    updK10 src nrm slf xw (ix2 (Fin.natAdd 1600000 n) f) = selfR10 slf xw (ix2 n f) := by
  refine (updK10_row src nrm slf xw (Fin.natAdd 1600000 n) f (BitVec.ofNat 32 n.val) (K.wrapIdx_self src n) (slf (ix1 n))
    (K.fullNorm_self nrm slf n)).trans ?_
  show _ = xw (ix2 n f) * broadcastInDim ⟨2, ![50000, 10]⟩ (![0, 1] : Fin 2 → Fin 2) Cert.ReferenceIdeal.Facts₀.bcast_S50000x1_S50000x10_0_1
      (broadcastInDim ⟨2, ![50000, 1]⟩ (![0] : Fin 1 → Fin 2) Cert.ReferenceIdeal.Facts₀.bcast_S50000_S50000x1_0 slf) (ix2 n f)
  rw [bcast_row_apply, bcast_col_apply]
  refine congrArg₂ (· * ·) ?_ rfl
  refine congrArg (fun q => xw (ix2 q f)) (Fin.ext ?_)
  show min (BitVec.ofNat 32 n.val).toInt.toNat (50000 - 1) = n.val
  rw [toInt_ofNat32 n.val (by have := n.isLt; omega)]
  have := n.isLt
  omega

/-- An edge row's scatter index is the edge's destination word in both programs. -/
theorem idx10_edge (e : Fin 1600000) :
    (idxK10 dst (ix2 (Fin.castAdd 50000 e) (0 : Fin 1))).toInt = (idxR10 dst (ix2 e (0 : Fin 1))).toInt := by
  have hK : idxK10 dst (ix2 (Fin.castAdd 50000 e) (0 : Fin 1)) = dst (ix1 e) :=
    (bcast_col_apply Cert.KernelIdeal.Facts₀.bcast_S1650000_S1650000x1_0 (K.fullIdx dst) (Fin.castAdd 50000 e) 0).trans (K.fullIdx_edge dst e)
  have hR : idxR10 dst (ix2 e (0 : Fin 1)) = dst (ix1 e) :=
    bcast_col_apply Cert.ReferenceIdeal.Facts₀.bcast_S1600000_S1600000x1_0 dst e 0
  rw [hK, hR]

/-- A self-loop row's scatter index is the node's number. -/
theorem idx10_self (t : Fin 50000) :
    (idxK10 dst (ix2 (Fin.natAdd 1600000 t) (0 : Fin 1))).toInt = (t.val : ℤ) := by
  have hK : idxK10 dst (ix2 (Fin.natAdd 1600000 t) (0 : Fin 1)) = BitVec.ofNat 32 t.val :=
    (bcast_col_apply Cert.KernelIdeal.Facts₀.bcast_S1650000_S1650000x1_0 (K.fullIdx dst) (Fin.natAdd 1600000 t) 0).trans (K.fullIdx_self dst t)
  rw [hK, toInt_ofNat32 t.val (by have := t.isLt; omega)]

/-- The kernel's scatter record is the general row-scatter record. -/
theorem scatterK10_eq : Cert.KernelIdeal.scatter_S50000x10_S1650000x1_S1650000x10_1_0_0_1
    = rowScatterDims 50000 (1600000 + 50000) 10 Cert.KernelIdeal.Facts₀.scatter_S50000x10_S1650000x1_S1650000x10_1_0_0_1_wf := rfl

/-- The reference's scatter record is the general row-scatter record. -/
theorem scatterR10_eq : Cert.ReferenceIdeal.scatter_S50000x10_S1600000x1_S1600000x10_1_0_0_1
    = rowScatterDims 50000 1600000 10 Cert.ReferenceIdeal.Facts₀.scatter_S50000x10_S1600000x1_S1600000x10_1_0_0_1_wf := rfl

/-- The kernel's aggregation is its one scatter, over the general row-scatter record. -/
theorem aggK10_read (n : Fin 50000) (f : Fin 10) :
    K.aggK10 src dst nrm slf xw (ix2 n f)
      = Ideal.hostScatterAdd (rowScatterDims 50000 (1600000 + 50000) 10 Cert.KernelIdeal.Facts₀.scatter_S50000x10_S1650000x1_S1650000x10_1_0_0_1_wf) zero10 (idxK10 dst)
          (updK10 src nrm slf xw) (ix2 n f) := by
  unfold K.aggK10
  rw [hostScatterAdd_ideal, scatterK10_eq]

/-- The reference's aggregation is its scatter over the edges, over the general row-scatter record, plus the self-loop term. -/
theorem aggR10_read (n : Fin 50000) (f : Fin 10) :
    R.aggR10 src dst nrm slf xw (ix2 n f)
      = Ideal.hostScatterAdd (rowScatterDims 50000 1600000 10 Cert.ReferenceIdeal.Facts₀.scatter_S50000x10_S1600000x1_S1600000x10_1_0_0_1_wf) zero10 (idxR10 dst)
          (updR10 src nrm xw) (ix2 n f) + selfR10 slf xw (ix2 n f) := by
  unfold R.aggR10
  rw [addf_apply, hostScatterAdd_ideal, scatterR10_eq]

/-- THE TWO AGGREGATIONS AGREE (10 columns): the kernel's one scatter over the edges and the self-loop rows is the
    reference's scatter over the edges plus its self-loop term. -/
theorem agg10_eq : K.aggK10 src dst nrm slf xw = R.aggR10 src dst nrm slf xw := by
  funext j
  obtain ⟨n, f, rfl⟩ : ∃ n f, j = ix2 n f := ⟨j 0, j 1, eq_ix2 j⟩
  refine (aggK10_read src dst nrm slf xw n f).trans ?_
  refine Eq.trans ?_ (aggR10_read src dst nrm slf xw n f).symm
  refine (hostScatterAdd_rows_concat_self (N := 50000) (M := 1600000) (D := 10) Cert.KernelIdeal.Facts₀.scatter_S50000x10_S1650000x1_S1650000x10_1_0_0_1_wf Cert.ReferenceIdeal.Facts₀.scatter_S50000x10_S1600000x1_S1600000x10_1_0_0_1_wf
      (zero10) (idxK10 dst) (updK10 src nrm slf xw) (idxR10 dst) (updR10 src nrm xw)
      (idx10_edge dst) (upd10_edge src nrm slf xw) (idx10_self dst) n f).trans ?_
  exact congrArg (fun y => Ideal.hostScatterAdd (rowScatterDims 50000 1600000 10 Cert.ReferenceIdeal.Facts₀.scatter_S50000x10_S1600000x1_S1600000x10_1_0_0_1_wf) (zero10) (idxR10 dst)
    (updR10 src nrm xw) (ix2 n f) + y) (upd10_self src nrm slf xw n f)

end Agg10

end Cert.Agg

end
-- ==== Proof.RefRunFold.lean ====
/-
  The idealized reference's run, read back. Its @main is a straight line of host operations, so every weakly fair
  execution terminates with each buffer at the fold of the operations over the launch memory. Read at the result's
  buffer that fold is the last stage function of the seven arguments: each operation's result is its function of its
  operands' results. The operations inlined from called functions carry their values through a transport along an
  equation between a buffer's type and the value's type; for each literal buffer that equation holds by computation
  and the transport is the identity, which is what the lemmas below say, one pair per buffer.
-/
import proofs.«128580_j23347442221163_2_alg».proof.Proof.RefOps
import proofs.«128580_j23347442221163_2_alg».proof.Proof.RefRead

noncomputable section

namespace Cert.ReferenceIdeal.RunFold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The transports are identities -/

theorem toBuf_main_cst_2 (h hd hs) (w : (⟨S_, .f32⟩ : BufTy).Contents (Elt F)) :
    (TRef.of (sig := sig) (T := ⟨S_, .f32⟩) main_cst_2 h hd hs).toBuf (Val := Elt F) w = w := rfl
theorem ofBuf_main_cst_2 (h hd hs) (w : (⟨S_, .f32⟩ : BufTy).Contents (Elt F)) :
    (TRef.of (sig := sig) (T := ⟨S_, .f32⟩) main_cst_2 h hd hs).ofBuf (Val := Elt F) w = w := rfl
theorem toBuf_main_call0_v0 (h hd hs) (w : (⟨S_, .f32⟩ : BufTy).Contents (Elt F)) :
    (TRef.of (sig := sig) (T := ⟨S_, .f32⟩) main_call0_v0 h hd hs).toBuf (Val := Elt F) w = w := rfl
theorem ofBuf_main_call0_v0 (h hd hs) (w : (⟨S_, .f32⟩ : BufTy).Contents (Elt F)) :
    (TRef.of (sig := sig) (T := ⟨S_, .f32⟩) main_call0_v0 h hd hs).ofBuf (Val := Elt F) w = w := rfl
theorem toBuf_main_call0_v1 (h hd hs) (w : (⟨S50000, .f32⟩ : BufTy).Contents (Elt F)) :
    (TRef.of (sig := sig) (T := ⟨S50000, .f32⟩) main_call0_v1 h hd hs).toBuf (Val := Elt F) w = w := rfl
theorem ofBuf_main_call0_v1 (h hd hs) (w : (⟨S50000, .f32⟩ : BufTy).Contents (Elt F)) :
    (TRef.of (sig := sig) (T := ⟨S50000, .f32⟩) main_call0_v1 h hd hs).ofBuf (Val := Elt F) w = w := rfl
theorem toBuf_main_v11 (h hd hs) (w : (⟨S50000, .i1⟩ : BufTy).Contents (Elt F)) :
    (TRef.of (sig := sig) (T := ⟨S50000, .i1⟩) main_v11 h hd hs).toBuf (Val := Elt F) w = w := rfl
theorem ofBuf_main_v11 (h hd hs) (w : (⟨S50000, .i1⟩ : BufTy).Contents (Elt F)) :
    (TRef.of (sig := sig) (T := ⟨S50000, .i1⟩) main_v11 h hd hs).ofBuf (Val := Elt F) w = w := rfl
theorem toBuf_main_v12 (h hd hs) (w : (⟨S50000, .f32⟩ : BufTy).Contents (Elt F)) :
    (TRef.of (sig := sig) (T := ⟨S50000, .f32⟩) main_v12 h hd hs).toBuf (Val := Elt F) w = w := rfl
theorem ofBuf_main_v12 (h hd hs) (w : (⟨S50000, .f32⟩ : BufTy).Contents (Elt F)) :
    (TRef.of (sig := sig) (T := ⟨S50000, .f32⟩) main_v12 h hd hs).ofBuf (Val := Elt F) w = w := rfl
theorem toBuf_main_v13 (h hd hs) (w : (⟨S50000, .f32⟩ : BufTy).Contents (Elt F)) :
    (TRef.of (sig := sig) (T := ⟨S50000, .f32⟩) main_v13 h hd hs).toBuf (Val := Elt F) w = w := rfl
theorem ofBuf_main_v13 (h hd hs) (w : (⟨S50000, .f32⟩ : BufTy).Contents (Elt F)) :
    (TRef.of (sig := sig) (T := ⟨S50000, .f32⟩) main_v13 h hd hs).ofBuf (Val := Elt F) w = w := rfl
theorem toBuf_main_call1_cst (h hd hs) (w : (⟨S_, .f32⟩ : BufTy).Contents (Elt F)) :
    (TRef.of (sig := sig) (T := ⟨S_, .f32⟩) main_call1_cst h hd hs).toBuf (Val := Elt F) w = w := rfl
theorem ofBuf_main_call1_cst (h hd hs) (w : (⟨S_, .f32⟩ : BufTy).Contents (Elt F)) :
    (TRef.of (sig := sig) (T := ⟨S_, .f32⟩) main_call1_cst h hd hs).ofBuf (Val := Elt F) w = w := rfl
theorem toBuf_main_call1_v0 (h hd hs) (w : (⟨S50000x128, .f32⟩ : BufTy).Contents (Elt F)) :
    (TRef.of (sig := sig) (T := ⟨S50000x128, .f32⟩) main_call1_v0 h hd hs).toBuf (Val := Elt F) w = w := rfl
theorem ofBuf_main_call1_v0 (h hd hs) (w : (⟨S50000x128, .f32⟩ : BufTy).Contents (Elt F)) :
    (TRef.of (sig := sig) (T := ⟨S50000x128, .f32⟩) main_call1_v0 h hd hs).ofBuf (Val := Elt F) w = w := rfl
theorem toBuf_main_v50 (h hd hs) (w : (⟨S50000x128, .f32⟩ : BufTy).Contents (Elt F)) :
    (TRef.of (sig := sig) (T := ⟨S50000x128, .f32⟩) main_v50 h hd hs).toBuf (Val := Elt F) w = w := rfl
theorem ofBuf_main_v50 (h hd hs) (w : (⟨S50000x128, .f32⟩ : BufTy).Contents (Elt F)) :
    (TRef.of (sig := sig) (T := ⟨S50000x128, .f32⟩) main_v50 h hd hs).ofBuf (Val := Elt F) w = w := rfl
theorem toBuf_main_v51 (h hd hs) (w : (⟨S50000x128, .f32⟩ : BufTy).Contents (Elt F)) :
    (TRef.of (sig := sig) (T := ⟨S50000x128, .f32⟩) main_v51 h hd hs).toBuf (Val := Elt F) w = w := rfl
theorem ofBuf_main_v51 (h hd hs) (w : (⟨S50000x128, .f32⟩ : BufTy).Contents (Elt F)) :
    (TRef.of (sig := sig) (T := ⟨S50000x128, .f32⟩) main_v51 h hd hs).ofBuf (Val := Elt F) w = w := rfl
theorem toBuf_main_cst_12 (h hd hs) (w : (⟨S_, .f32⟩ : BufTy).Contents (Elt F)) :
    (TRef.of (sig := sig) (T := ⟨S_, .f32⟩) main_cst_12 h hd hs).toBuf (Val := Elt F) w = w := rfl
theorem ofBuf_main_cst_12 (h hd hs) (w : (⟨S_, .f32⟩ : BufTy).Contents (Elt F)) :
    (TRef.of (sig := sig) (T := ⟨S_, .f32⟩) main_cst_12 h hd hs).ofBuf (Val := Elt F) w = w := rfl
theorem toBuf_main_call2_v0 (h hd hs) (w : (⟨S_, .f32⟩ : BufTy).Contents (Elt F)) :
    (TRef.of (sig := sig) (T := ⟨S_, .f32⟩) main_call2_v0 h hd hs).toBuf (Val := Elt F) w = w := rfl
theorem ofBuf_main_call2_v0 (h hd hs) (w : (⟨S_, .f32⟩ : BufTy).Contents (Elt F)) :
    (TRef.of (sig := sig) (T := ⟨S_, .f32⟩) main_call2_v0 h hd hs).ofBuf (Val := Elt F) w = w := rfl
theorem toBuf_main_call2_v1 (h hd hs) (w : (⟨S50000, .f32⟩ : BufTy).Contents (Elt F)) :
    (TRef.of (sig := sig) (T := ⟨S50000, .f32⟩) main_call2_v1 h hd hs).toBuf (Val := Elt F) w = w := rfl
theorem ofBuf_main_call2_v1 (h hd hs) (w : (⟨S50000, .f32⟩ : BufTy).Contents (Elt F)) :
    (TRef.of (sig := sig) (T := ⟨S50000, .f32⟩) main_call2_v1 h hd hs).ofBuf (Val := Elt F) w = w := rfl
theorem toBuf_main_v59 (h hd hs) (w : (⟨S50000, .i1⟩ : BufTy).Contents (Elt F)) :
    (TRef.of (sig := sig) (T := ⟨S50000, .i1⟩) main_v59 h hd hs).toBuf (Val := Elt F) w = w := rfl
theorem ofBuf_main_v59 (h hd hs) (w : (⟨S50000, .i1⟩ : BufTy).Contents (Elt F)) :
    (TRef.of (sig := sig) (T := ⟨S50000, .i1⟩) main_v59 h hd hs).ofBuf (Val := Elt F) w = w := rfl
theorem toBuf_main_v60 (h hd hs) (w : (⟨S50000, .f32⟩ : BufTy).Contents (Elt F)) :
    (TRef.of (sig := sig) (T := ⟨S50000, .f32⟩) main_v60 h hd hs).toBuf (Val := Elt F) w = w := rfl
theorem ofBuf_main_v60 (h hd hs) (w : (⟨S50000, .f32⟩ : BufTy).Contents (Elt F)) :
    (TRef.of (sig := sig) (T := ⟨S50000, .f32⟩) main_v60 h hd hs).ofBuf (Val := Elt F) w = w := rfl
theorem toBuf_main_v61 (h hd hs) (w : (⟨S50000, .f32⟩ : BufTy).Contents (Elt F)) :
    (TRef.of (sig := sig) (T := ⟨S50000, .f32⟩) main_v61 h hd hs).toBuf (Val := Elt F) w = w := rfl
theorem ofBuf_main_v61 (h hd hs) (w : (⟨S50000, .f32⟩ : BufTy).Contents (Elt F)) :
    (TRef.of (sig := sig) (T := ⟨S50000, .f32⟩) main_v61 h hd hs).ofBuf (Val := Elt F) w = w := rfl
theorem toBuf_main_call3_cst (h hd hs) (w : (⟨S_, .f32⟩ : BufTy).Contents (Elt F)) :
    (TRef.of (sig := sig) (T := ⟨S_, .f32⟩) main_call3_cst h hd hs).toBuf (Val := Elt F) w = w := rfl
theorem ofBuf_main_call3_cst (h hd hs) (w : (⟨S_, .f32⟩ : BufTy).Contents (Elt F)) :
    (TRef.of (sig := sig) (T := ⟨S_, .f32⟩) main_call3_cst h hd hs).ofBuf (Val := Elt F) w = w := rfl
theorem toBuf_main_v98 (h hd hs) (w : (⟨S50000x10, .f32⟩ : BufTy).Contents (Elt F)) :
    (TRef.of (sig := sig) (T := ⟨S50000x10, .f32⟩) main_v98 h hd hs).toBuf (Val := Elt F) w = w := rfl
theorem ofBuf_main_v98 (h hd hs) (w : (⟨S50000x10, .f32⟩ : BufTy).Contents (Elt F)) :
    (TRef.of (sig := sig) (T := ⟨S50000x10, .f32⟩) main_v98 h hd hs).ofBuf (Val := Elt F) w = w := rfl
theorem toBuf_main_call3_v0 (h hd hs) (w : (⟨S50000, .f32⟩ : BufTy).Contents (Elt F)) :
    (TRef.of (sig := sig) (T := ⟨S50000, .f32⟩) main_call3_v0 h hd hs).toBuf (Val := Elt F) w = w := rfl
theorem ofBuf_main_call3_v0 (h hd hs) (w : (⟨S50000, .f32⟩ : BufTy).Contents (Elt F)) :
    (TRef.of (sig := sig) (T := ⟨S50000, .f32⟩) main_call3_v0 h hd hs).ofBuf (Val := Elt F) w = w := rfl
theorem toBuf_main_call3_cst_0 (h hd hs) (w : (⟨S_, .f32⟩ : BufTy).Contents (Elt F)) :
    (TRef.of (sig := sig) (T := ⟨S_, .f32⟩) main_call3_cst_0 h hd hs).toBuf (Val := Elt F) w = w := rfl
theorem ofBuf_main_call3_cst_0 (h hd hs) (w : (⟨S_, .f32⟩ : BufTy).Contents (Elt F)) :
    (TRef.of (sig := sig) (T := ⟨S_, .f32⟩) main_call3_cst_0 h hd hs).ofBuf (Val := Elt F) w = w := rfl
theorem toBuf_main_call3_v1 (h hd hs) (w : (⟨S50000, .f32⟩ : BufTy).Contents (Elt F)) :
    (TRef.of (sig := sig) (T := ⟨S50000, .f32⟩) main_call3_v1 h hd hs).toBuf (Val := Elt F) w = w := rfl
theorem ofBuf_main_call3_v1 (h hd hs) (w : (⟨S50000, .f32⟩ : BufTy).Contents (Elt F)) :
    (TRef.of (sig := sig) (T := ⟨S50000, .f32⟩) main_call3_v1 h hd hs).ofBuf (Val := Elt F) w = w := rfl
theorem toBuf_main_call3_v2 (h hd hs) (w : (⟨S50000, .f32⟩ : BufTy).Contents (Elt F)) :
    (TRef.of (sig := sig) (T := ⟨S50000, .f32⟩) main_call3_v2 h hd hs).toBuf (Val := Elt F) w = w := rfl
theorem ofBuf_main_call3_v2 (h hd hs) (w : (⟨S50000, .f32⟩ : BufTy).Contents (Elt F)) :
    (TRef.of (sig := sig) (T := ⟨S50000, .f32⟩) main_call3_v2 h hd hs).ofBuf (Val := Elt F) w = w := rfl
theorem toBuf_main_call3_v3 (h hd hs) (w : (⟨S50000x1, .f32⟩ : BufTy).Contents (Elt F)) :
    (TRef.of (sig := sig) (T := ⟨S50000x1, .f32⟩) main_call3_v3 h hd hs).toBuf (Val := Elt F) w = w := rfl
theorem ofBuf_main_call3_v3 (h hd hs) (w : (⟨S50000x1, .f32⟩ : BufTy).Contents (Elt F)) :
    (TRef.of (sig := sig) (T := ⟨S50000x1, .f32⟩) main_call3_v3 h hd hs).ofBuf (Val := Elt F) w = w := rfl
theorem toBuf_main_call3_v4 (h hd hs) (w : (⟨S50000x10, .f32⟩ : BufTy).Contents (Elt F)) :
    (TRef.of (sig := sig) (T := ⟨S50000x10, .f32⟩) main_call3_v4 h hd hs).toBuf (Val := Elt F) w = w := rfl
theorem ofBuf_main_call3_v4 (h hd hs) (w : (⟨S50000x10, .f32⟩ : BufTy).Contents (Elt F)) :
    (TRef.of (sig := sig) (T := ⟨S50000x10, .f32⟩) main_call3_v4 h hd hs).ofBuf (Val := Elt F) w = w := rfl
theorem toBuf_main_call3_v5 (h hd hs) (w : (⟨S50000x10, .f32⟩ : BufTy).Contents (Elt F)) :
    (TRef.of (sig := sig) (T := ⟨S50000x10, .f32⟩) main_call3_v5 h hd hs).toBuf (Val := Elt F) w = w := rfl
theorem ofBuf_main_call3_v5 (h hd hs) (w : (⟨S50000x10, .f32⟩ : BufTy).Contents (Elt F)) :
    (TRef.of (sig := sig) (T := ⟨S50000x10, .f32⟩) main_call3_v5 h hd hs).ofBuf (Val := Elt F) w = w := rfl
theorem toBuf_main_call3_v6 (h hd hs) (w : (⟨S50000x10, .f32⟩ : BufTy).Contents (Elt F)) :
    (TRef.of (sig := sig) (T := ⟨S50000x10, .f32⟩) main_call3_v6 h hd hs).toBuf (Val := Elt F) w = w := rfl
theorem ofBuf_main_call3_v6 (h hd hs) (w : (⟨S50000x10, .f32⟩ : BufTy).Contents (Elt F)) :
    (TRef.of (sig := sig) (T := ⟨S50000x10, .f32⟩) main_call3_v6 h hd hs).ofBuf (Val := Elt F) w = w := rfl
theorem toBuf_main_call3_cst_1 (h hd hs) (w : (⟨S_, .f32⟩ : BufTy).Contents (Elt F)) :
    (TRef.of (sig := sig) (T := ⟨S_, .f32⟩) main_call3_cst_1 h hd hs).toBuf (Val := Elt F) w = w := rfl
theorem ofBuf_main_call3_cst_1 (h hd hs) (w : (⟨S_, .f32⟩ : BufTy).Contents (Elt F)) :
    (TRef.of (sig := sig) (T := ⟨S_, .f32⟩) main_call3_cst_1 h hd hs).ofBuf (Val := Elt F) w = w := rfl
theorem toBuf_main_call3_v7 (h hd hs) (w : (⟨S50000, .f32⟩ : BufTy).Contents (Elt F)) :
    (TRef.of (sig := sig) (T := ⟨S50000, .f32⟩) main_call3_v7 h hd hs).toBuf (Val := Elt F) w = w := rfl
theorem ofBuf_main_call3_v7 (h hd hs) (w : (⟨S50000, .f32⟩ : BufTy).Contents (Elt F)) :
    (TRef.of (sig := sig) (T := ⟨S50000, .f32⟩) main_call3_v7 h hd hs).ofBuf (Val := Elt F) w = w := rfl
theorem toBuf_main_call3_v8 (h hd hs) (w : (⟨S50000x1, .f32⟩ : BufTy).Contents (Elt F)) :
    (TRef.of (sig := sig) (T := ⟨S50000x1, .f32⟩) main_call3_v8 h hd hs).toBuf (Val := Elt F) w = w := rfl
theorem ofBuf_main_call3_v8 (h hd hs) (w : (⟨S50000x1, .f32⟩ : BufTy).Contents (Elt F)) :
    (TRef.of (sig := sig) (T := ⟨S50000x1, .f32⟩) main_call3_v8 h hd hs).ofBuf (Val := Elt F) w = w := rfl
theorem toBuf_main_call3_v9 (h hd hs) (w : (⟨S50000x1, .f32⟩ : BufTy).Contents (Elt F)) :
    (TRef.of (sig := sig) (T := ⟨S50000x1, .f32⟩) main_call3_v9 h hd hs).toBuf (Val := Elt F) w = w := rfl
theorem ofBuf_main_call3_v9 (h hd hs) (w : (⟨S50000x1, .f32⟩ : BufTy).Contents (Elt F)) :
    (TRef.of (sig := sig) (T := ⟨S50000x1, .f32⟩) main_call3_v9 h hd hs).ofBuf (Val := Elt F) w = w := rfl
theorem toBuf_main_call3_v10 (h hd hs) (w : (⟨S50000x10, .f32⟩ : BufTy).Contents (Elt F)) :
    (TRef.of (sig := sig) (T := ⟨S50000x10, .f32⟩) main_call3_v10 h hd hs).toBuf (Val := Elt F) w = w := rfl
theorem ofBuf_main_call3_v10 (h hd hs) (w : (⟨S50000x10, .f32⟩ : BufTy).Contents (Elt F)) :
    (TRef.of (sig := sig) (T := ⟨S50000x10, .f32⟩) main_call3_v10 h hd hs).ofBuf (Val := Elt F) w = w := rfl
theorem toBuf_main_v99 (h hd hs) (w : (⟨S50000x10, .f32⟩ : BufTy).Contents (Elt F)) :
    (TRef.of (sig := sig) (T := ⟨S50000x10, .f32⟩) main_v99 h hd hs).toBuf (Val := Elt F) w = w := rfl
theorem ofBuf_main_v99 (h hd hs) (w : (⟨S50000x10, .f32⟩ : BufTy).Contents (Elt F)) :
    (TRef.of (sig := sig) (T := ⟨S50000x10, .f32⟩) main_v99 h hd hs).ofBuf (Val := Elt F) w = w := rfl

/-! ## The fold at the result's buffer -/

set_option maxRecDepth 16384 in
set_option maxHeartbeats 56800000 in
/-- After all the operations the result's buffer holds the last stage of the seven arguments' contents. -/
theorem fold_result (V : Valuation τ sig (Elt F)) :
    after (ops (F := F)) V (Proc.devRef .tc main_v99)
      = val_main_v99 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp
  simp only [toBuf_main_cst_2, ofBuf_main_cst_2, toBuf_main_call0_v0, ofBuf_main_call0_v0, toBuf_main_call0_v1, ofBuf_main_call0_v1, toBuf_main_v11, ofBuf_main_v11, toBuf_main_v12, ofBuf_main_v12, toBuf_main_v13, ofBuf_main_v13, toBuf_main_call1_cst, ofBuf_main_call1_cst, toBuf_main_call1_v0, ofBuf_main_call1_v0, toBuf_main_v50, ofBuf_main_v50, toBuf_main_v51, ofBuf_main_v51, toBuf_main_cst_12, ofBuf_main_cst_12, toBuf_main_call2_v0, ofBuf_main_call2_v0, toBuf_main_call2_v1, ofBuf_main_call2_v1, toBuf_main_v59, ofBuf_main_v59, toBuf_main_v60, ofBuf_main_v60, toBuf_main_v61, ofBuf_main_v61, toBuf_main_call3_cst, ofBuf_main_call3_cst, toBuf_main_v98, ofBuf_main_v98, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v99, ofBuf_main_v99]
  rfl

set_option maxRecDepth 16384 in
set_option maxHeartbeats 56800000 in
/-- On every device, from any memory with zero counters: every weakly fair execution of @main terminates with the
    result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v99).trans (fold_result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RunFold

end
-- ==== Proof.Bridge.lean ====
/-
  The two idealized programs compute one function.

  The shared expression: with s, d the edge list's sources and destinations, n the edges' normalisation weights and
  w the nodes' self-loop weights (all computed from the edge list and the edge weights), and Agg the aggregation
  "scatter the edge rows' messages, add the self-loop message",

      result = logsoftmax_rows( Agg( max(Agg(X · W1) + b1, 0) · W2 ) + b2 ).

  The reference computes exactly this, stage by stage. The kernel computes each aggregation as ONE scatter over the
  edge list extended by the self-loops, which is the same sum with its terms in another grouping; its three kernel regions
  compute the two products and the log-softmax by row blocks, which changes nothing row by row; its bias rows are the
  bias vectors reshaped, where the reference broadcasts them.
-/
import proofs.«128580_j23347442221163_2_alg».proof.Defs
import proofs.«128580_j23347442221163_2_alg».proof.Proof.KernelVal
import proofs.«128580_j23347442221163_2_alg».proof.Proof.RefG
import proofs.«128580_j23347442221163_2_alg».proof.Proof.AggBridge
import proofs.«128580_j23347442221163_2_alg».proof.Proof.RefRunFold
import proofs.«128580_j23347442221163_2_alg».proof.Proof.Gen.Kernel.Frame
import proofs.«128580_j23347442221163_2_alg».proof.Proof.Gen.Pre_finite_inputs
import proofs.«128580_j23347442221163_2_alg».proof.Proof.Gen.Kernel
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.ReferenceIdeal.Read
open Cert.KernelIdeal (Region0.prod Region1.hid Region2.lsmArr)

/-- The shared expression of the seven arguments. -/
def G (x0 : (⟨Cert.ReferenceIdeal.S50000x128, .f32⟩ : BufTy).Contents (Elt Ideal)) (x1 : (⟨Cert.ReferenceIdeal.S2x1600000, .i32⟩ : BufTy).Contents (Elt Ideal))
    (x2 : (⟨Cert.ReferenceIdeal.S1600000, .f32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x10, .f32⟩ : BufTy).Contents (Elt Ideal))
    (x6 : (⟨Cert.ReferenceIdeal.S10, .f32⟩ : BufTy).Contents (Elt Ideal)) : Cert.KernelIdeal.S50000x10.Idx → EReal :=
  Region2.lsmArr
    (Cert.Agg.R.aggR10 (Cert.Norm.R.srcOf x1) (Cert.Norm.R.dstOf x1) (Cert.Norm.R.nrmOf (F := Ideal) (Cert.Norm.R.srcOf x1) (Cert.Norm.R.dstOf x1) x2) (Cert.Norm.R.slfOf (F := Ideal) (Cert.Norm.R.dstOf x1) x2)
      (Region1.hid
        (Cert.Agg.R.aggR128 (Cert.Norm.R.srcOf x1) (Cert.Norm.R.dstOf x1) (Cert.Norm.R.nrmOf (F := Ideal) (Cert.Norm.R.srcOf x1) (Cert.Norm.R.dstOf x1) x2) (Cert.Norm.R.slfOf (F := Ideal) (Cert.Norm.R.dstOf x1) x2)
          (Region0.prod x0 x3))
        (val_main_v48 (F := Ideal) x4) x5))
    (val_main_v96 (F := Ideal) x6)

/-- A length-128 vector reshaped to a row is that vector broadcast along a new leading unit axis. -/
theorem bias128 (x4 : (⟨Cert.ReferenceIdeal.S128, .f32⟩ : BufTy).Contents (Elt Ideal)) :
    (shapeCast Cert.KernelIdeal.S1x128 x4 Cert.KernelIdeal.Gen.shapeCasts_S128_S1x128 : Cert.KernelIdeal.S1x128.Idx → EReal) = val_main_v48 (F := Ideal) x4 := by
  funext j
  obtain ⟨u, k, rfl⟩ : ∃ (u : Fin 1) (k : Fin 128), j = ix2 u k := ⟨j 0, j 1, eq_ix2 j⟩
  rw [val_main_v48_apply]
  exact (shapeCast_a_1a_apply x4 _ u k).trans (congrArg x4 (funext fun a => Fin.ext (by match a with | ⟨0, _⟩ => rfl)))

/-- The same for the length-10 vector. -/
theorem bias10 (x6 : (⟨Cert.ReferenceIdeal.S10, .f32⟩ : BufTy).Contents (Elt Ideal)) :
    (shapeCast Cert.KernelIdeal.S1x10 x6 Cert.KernelIdeal.Gen.shapeCasts_S10_S1x10 : Cert.KernelIdeal.S1x10.Idx → EReal) = val_main_v96 (F := Ideal) x6 := by
  funext j
  obtain ⟨u, k, rfl⟩ : ∃ (u : Fin 1) (k : Fin 10), j = ix2 u k := ⟨j 0, j 1, eq_ix2 j⟩
  rw [val_main_v96_apply]
  exact (shapeCast_a_1a_apply x6 _ u k).trans (congrArg x6 (funext fun a => Fin.ext (by match a with | ⟨0, _⟩ => rfl)))

section Kernel
open Cert.KernelIdeal Cert.KernelIdeal.Gen

variable (m : (ℓ : Loc nD τ sig) → Buf (Elt Ideal) ℓ) (ρ : Dev nD → PrngReg)

/-- The extended weight list is the concatenation the aggregation is stated over. -/
theorem fullNorm_eq (c : Dev nD) : W3 m ρ c (Proc.devRef .tc main_v33)
    = Cert.Agg.K.fullNorm (Cert.Norm.K.nrmOf (F := Ideal) (Cert.Norm.K.srcOf (m ((c : Thread nD τ).loc main_arg1))) (Cert.Norm.K.dstOf (m ((c : Thread nD τ).loc main_arg1))) (m ((c : Thread nD τ).loc main_arg2)))
        (Cert.Norm.K.slfOf (F := Ideal) (Cert.Norm.K.dstOf (m ((c : Thread nD τ).loc main_arg1))) (m ((c : Thread nD τ).loc main_arg2))) :=
  KernelVal.W3_v33 m ρ c

/-- On exact values the rounding of the first weight matrix is the identity. -/
theorem w1_eq (c : Dev nD) : W3 m ρ c (Proc.devRef .tc main_v34) = (m ((c : Thread nD τ).loc main_arg3)) := KernelVal.W3_v34 m ρ c
/-- The same for the second weight matrix. -/
theorem w2_eq (c : Dev nD) : W3 m ρ c (Proc.devRef .tc main_v35) = (m ((c : Thread nD τ).loc main_arg5)) := KernelVal.W3_v35 m ρ c

/-- The kernel's result is the shared expression of its arguments' launch contents. -/
theorem kernel_result (c : Dev nD) : W8 m ρ c (Proc.devRef .tc main_v70)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [HostK.result, KernelVal.W3_v31, KernelVal.W3_v32, fullNorm_eq, w1_eq, w2_eq, KernelVal.W3_v36,
    KernelVal.W3_v37, HostK.aggKfull128_concat, HostK.aggKfull10_concat, Cert.Agg.agg128_eq, Cert.Agg.agg10_eq, Cert.Norm.nrmOf_eq, Cert.Norm.slfOf_eq,
    Cert.Norm.srcOf_eq, Cert.Norm.dstOf_eq, bias128, bias10]
  rfl

end Kernel

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunFold.run (F := Ideal) m ρ)

/-- The ideal pass rewrote nothing: the idealized kernel is the kernel's own text read on exact values. -/
theorem preserves : Cert.preserves_Kernel_KernelIdeal := trivial

/-- Both idealized programs, from memories agreeing on the arguments, end with the shared expression of the arguments. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (kernel_result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RunFold.run (F := Ideal) m' ρ')
    rw [(hagree c).1, (hagree c).2.1, (hagree c).2.2.1, (hagree c).2.2.2.1, (hagree c).2.2.2.2.1, (hagree c).2.2.2.2.2.1, (hagree c).2.2.2.2.2.2]
    exact Cert.RefG.result _ _ _ _ _ _ _

end Cert.Bridge

end
-- ==== Proof.lean ====
/-
  The proof of `Cert.Claim`: a two-layer graph convolution followed by a row-wise log-softmax, computed by a program of
  three kernel regions among host operations, equals its plain reference on the extended reals.

  The three frames: the two kernel programs run to the end with their arguments unchanged (the generated frame
  certificates), and so does the reference (its straight-line run). The idealization rewrote nothing. The value claim:
  both idealized programs end with ONE expression of the arguments (Proof/Bridge.lean) — the reference stage by stage
  (Proof/RefG.lean over Proof/RefRunFold.lean), the kernel region by region and host stretch by host stretch
  (Proof/Region0–2.lean, Proof/HostK.lean, Proof/KernelVal.lean over Proof/KernelRun.lean), the two spellings of the
  neighbourhood aggregation joined in Proof/AggBridge.lean: one scatter over the edge list extended by the self-loops
  against a scatter over the edges plus the self-loop term, the same sum grouped differently.
-/
import proofs.«128580_j23347442221163_2_alg».proof.Proof.Bridge
import proofs.«128580_j23347442221163_2_alg».proof.Defs
import proofs.«128580_j23347442221163_2_alg».proof.Proof.Gen.Kernel
import proofs.«128580_j23347442221163_2_alg».proof.Proof.Gen.Kernel.Skeleton
import proofs.«128580_j23347442221163_2_alg».proof.Proof.Gen.Kernel.Launch
import proofs.«128580_j23347442221163_2_alg».proof.Proof.Gen.Kernel.Points
import proofs.«128580_j23347442221163_2_alg».proof.Proof.Gen.Kernel.Frame
import proofs.«128580_j23347442221163_2_alg».proof.Proof.Gen.KernelIdeal
import proofs.«128580_j23347442221163_2_alg».proof.Proof.Gen.KernelIdeal.Skeleton
import proofs.«128580_j23347442221163_2_alg».proof.Proof.Gen.KernelIdeal.Launch
import proofs.«128580_j23347442221163_2_alg».proof.Proof.Gen.KernelIdeal.Points
import proofs.«128580_j23347442221163_2_alg».proof.Proof.Gen.KernelIdeal.Frame
import proofs.«128580_j23347442221163_2_alg».proof.Proof.Gen.ReferenceIdeal
import proofs.«128580_j23347442221163_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.frame_k, Cert.Bridge.frame_ki, Cert.Bridge.frame_ri, Cert.Bridge.preserves, Cert.Bridge.algebraic⟩

end Cert.Proof

end
